-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91_0)) (v1 : (c : Dev Cert.KernelIdeal.nD) → Buf (Elt Ideal) ((c.tc : Thread Cert.KernelIdeal.nD Cert.KernelIdeal.τ).loc Cert.KernelIdeal.main_v91_1)) (v2 : (c : Dev Cert.KernelIdeal.nD) → Buf (Elt Ideal) ((c.tc : Thread Cert.KernelIdeal.nD Cert.KernelIdeal.τ).loc Cert.KernelIdeal.main_v91_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91_0) = v0 c
          ∧ r.2.mem ((c.tc : Thread Cert.KernelIdeal.nD Cert.KernelIdeal.τ).loc Cert.KernelIdeal.main_v91_1) = v1 c
          ∧ r.2.mem ((c.tc : Thread Cert.KernelIdeal.nD Cert.KernelIdeal.τ).loc Cert.KernelIdeal.main_v91_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v173) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x800000 : Shape := ⟨2, ![2, 800000]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S64x32 .f32) (main_arg9 : FVec F S32 .f32) (main_arg10 : FVec F S50000x32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S50000x32 .f32 := Host.absf main_arg10
  let main_cst_16 : FVec F S_ .f32 := constant S_ .f32 0x7F800000#32
  let main_v45 : FVec F S50000x32 .f32 := broadcastInDim S50000x32 ![] bcast_S_S50000x32 main_cst_16
  let main_v46 : IVec S50000x32 1 := cmpf .olt main_v44 main_v45
  let main_c_17 : IVec S_ 1 := constantI S_ 1 1#1
  let main_v47 : IVec S_ 1 := (fun x v => Host.reduce IntOp.andi x v reducesTo_S50000x32_S_d0_1 h_S_) main_v46 main_c_17
  let main_v48 : IVec S_ 1 := andi main_v43 main_v47
  main_v48

def fn_part1 {F : FTy → Type} [FloatOps F] (main_arg5 : FVec F S64 .f32) (main_arg6 : FVec F S64x32 .f32) (main_arg7 : FVec F S32 .f32) (main_arg8 : FVec F S64x32 .f32) (main_arg9 : FVec F S32 .f32) (main_arg10 : FVec F S50000x32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_v33

def fn {F : FTy → Type} [FloatOps F] (main_arg0 : FVec F S50000x32 .f32) (main_arg1 : IVec S2x800000 32) (main_arg2 : FVec F S32x64 .f32) (main_arg3 : FVec F S64 .f32) (main_arg4 : FVec F S64x64 .f32) (main_arg5 : FVec F S64 .f32) (main_arg6 : FVec F S64x32 .f32) (main_arg7 : FVec F S32 .f32) (main_arg8 : FVec F S64x32 .f32) (main_arg9 : FVec F S32 .f32) (main_arg10 : FVec F S50000x32 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_v13 main_v16
-- ==== Kernel.lean ====
abbrev S50000x32 : Shape := ⟨2, ![50000, 32]⟩
abbrev S2x800000 : Shape := ⟨2, ![2, 800000]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x32 : Shape := ⟨2, ![2000, 32]⟩
abbrev S2000x64 : Shape := ⟨2, ![2000, 64]⟩
abbrev S850000x64 : Shape := ⟨2, ![850000, 64]⟩
abbrev S1x64 : Shape := ⟨2, ![1, 64]⟩
abbrev S850000x32 : Shape := ⟨2, ![850000, 32]⟩
abbrev S1x32 : Shape := ⟨2, ![1, 32]⟩

abbrev nBuf : Space → Nat
  | .hbm => 124
  | .vmem => 44
  | .smem => 0
  | _ => 0

abbrev bufTy : (tb : Table) → Fin (tcTables nBuf tb) → BufTy
  | .hbm, ⟨0, _⟩ => ⟨S50000x32, .f32⟩
  | .hbm, ⟨1, _⟩ => ⟨S2x800000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S32, .f32⟩
  | .hbm, ⟨10, _⟩ => ⟨S50000x32, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000, .i32⟩
  | .hbm, ⟨16, _⟩ => ⟨S850000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x64, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x1, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x32, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000x32, .f32⟩
  | .hbm, ⟨95, _⟩ => ⟨S850000x1, .f32⟩
  | .hbm, ⟨96, _⟩ => ⟨S850000x32, .f32⟩
  | .hbm, ⟨97, _⟩ => ⟨S850000x32, .f32⟩
  | .hbm, ⟨98, _⟩ => ⟨S_, .f32⟩
  | .hbm, ⟨99, _⟩ => ⟨S50000x32, .f32⟩
  | .hbm, ⟨100, _⟩ => ⟨S850000x1, .i32⟩
  | .hbm, ⟨101, _⟩ => ⟨S50000x32, .f32⟩
  | .hbm, ⟨102, _⟩ => ⟨S50000x32, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x32, .f32⟩
  | .hbm, ⟨112, _⟩ => ⟨S850000x1, .f32⟩
  | .hbm, ⟨113, _⟩ => ⟨S850000x32, .f32⟩
  | .hbm, ⟨114, _⟩ => ⟨S850000x32, .f32⟩
  | .hbm, ⟨115, _⟩ => ⟨S_, .f32⟩
  | .hbm, ⟨116, _⟩ => ⟨S50000x32, .f32⟩
  | .hbm, ⟨117, _⟩ => ⟨S850000x1, .i32⟩
  | .hbm, ⟨118, _⟩ => ⟨S50000x32, .f32⟩
  | .hbm, ⟨119, _⟩ => ⟨S1x32, .f32⟩
  | .hbm, ⟨120, _⟩ => ⟨S1x32, .f32⟩
  | .hbm, ⟨121, _⟩ => ⟨S50000x32, .f32⟩
  | .hbm, ⟨122, _⟩ => ⟨S50000x32, .f32⟩
  | .hbm, ⟨123, _⟩ => ⟨S50000x32, .f32⟩
  | .local _ .vmem, ⟨0, _⟩ => ⟨S2000x32, .f32⟩
  | .local _ .vmem, ⟨1, _⟩ => ⟨S2000x32, .f32⟩
  | .local _ .vmem, ⟨2, _⟩ => ⟨S32x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x32, .f32⟩
  | .local _ .vmem, ⟨23, _⟩ => ⟨S2000x32, .f32⟩
  | .local _ .vmem, ⟨24, _⟩ => ⟨S2000x32, .f32⟩
  | .local _ .vmem, ⟨25, _⟩ => ⟨S2000x64, .f32⟩
  | .local _ .vmem, ⟨26, _⟩ => ⟨S2000x64, .f32⟩
  | .local _ .vmem, ⟨27, _⟩ => ⟨S64x32, .f32⟩
  | .local _ .vmem, ⟨28, _⟩ => ⟨S2000x32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S1x32, .f32⟩
  | .local _ .vmem, ⟨33, _⟩ => ⟨S2000x32, .f32⟩
  | .local _ .vmem, ⟨34, _⟩ => ⟨S2000x32, .f32⟩
  | .local _ .vmem, ⟨35, _⟩ => ⟨S1x32, .f32⟩
  | .local _ .vmem, ⟨36, _⟩ => ⟨S2000x32, .f32⟩
  | .local _ .vmem, ⟨37, _⟩ => ⟨S2000x32, .f32⟩
  | .local _ .vmem, ⟨38, _⟩ => ⟨S2000x32, .f32⟩
  | .local _ .vmem, ⟨39, _⟩ => ⟨S2000x32, .f32⟩
  | .local _ .vmem, ⟨40, _⟩ => ⟨S2000x32, .f32⟩
  | .local _ .vmem, ⟨41, _⟩ => ⟨S2000x32, .f32⟩
  | .local _ .vmem, ⟨42, _⟩ => ⟨S2000x32, .f32⟩
  | .local _ .vmem, ⟨43, _⟩ => ⟨S2000x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_14 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_16 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91_0 : Ref sig .tc := ⟨.hbm, 121, rfl⟩
abbrev main_v91_1 : Ref sig .tc := ⟨.hbm, 122, rfl⟩
abbrev main_v91_2 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc6_stg3_0 : Ref sig .tc := ⟨.vmem, 35, rfl⟩
abbrev cc6_stg4_0 : Ref sig .tc := ⟨.vmem, 36, rfl⟩
abbrev cc6_stg4_1 : Ref sig .tc := ⟨.vmem, 37, rfl⟩
abbrev cc6_stg5_0 : Ref sig .tc := ⟨.vmem, 38, rfl⟩
abbrev cc6_stg5_1 : Ref sig .tc := ⟨.vmem, 39, rfl⟩
abbrev cc6_stg6_0 : Ref sig .tc := ⟨.vmem, 40, rfl⟩
abbrev cc6_stg6_1 : Ref sig .tc := ⟨.vmem, 41, rfl⟩
abbrev cc6_stg7_0 : Ref sig .tc := ⟨.vmem, 42, rfl⟩
abbrev cc6_stg7_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc6_sem3_0 : DmaSem sig := 35
abbrev cc6_sem4_0 : DmaSem sig := 36
abbrev cc6_sem4_1 : DmaSem sig := 37
abbrev cc6_sem5_0 : DmaSem sig := 38
abbrev cc6_sem5_1 : DmaSem sig := 39
abbrev cc6_sem6_0 : DmaSem sig := 40
abbrev cc6_sem6_1 : DmaSem sig := 41
abbrev cc6_sem7_0 : DmaSem sig := 42
abbrev cc6_sem7_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x32 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2000x32 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S2000x32 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S2000x32 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x32_S32x64_S2000x64_1_0_0_1_n_n_wf : DotDims.WF S2000x32 S32x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S50000x32.size a
  hwx0_0 : ∀ i : grid0.Coords, EltTy.bits .f32 = 32 ∨ (Rect.block (s := S50000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x32.size a ≤ S50000x32.size a
  hwx4_2 : ∀ i : grid4.Coords, EltTy.bits .f32 = 32 ∨ (Rect.block (s := S50000x32) S2000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x32.size a ≤ S50000x32.size a
  hwx5_2 : ∀ i : grid5.Coords, EltTy.bits .f32 = 32 ∨ (Rect.block (s := S50000x32) S2000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S50000x32.size a
  hwx6_0 : ∀ i : grid6.Coords, EltTy.bits .f32 = 32 ∨ (Rect.block (s := S50000x32) S2000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x32.size a ≤ S1x32.size a
  hwx6_1 : ∀ i : grid6.Coords, EltTy.bits .f32 = 32 ∨ (Rect.block (s := S1x32) S1x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x32.size a ≤ S50000x32.size a
  hwx6_2 : ∀ i : grid6.Coords, EltTy.bits .f32 = 32 ∨ (Rect.block (s := S50000x32) S2000x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x32.size a ≤ S1x32.size a
  hwx6_3 : ∀ i : grid6.Coords, EltTy.bits .f32 = 32 ∨ (Rect.block (s := S1x32) S1x32.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x32.size a ≤ S50000x32.size a
  hwx6_4 : ∀ i : grid6.Coords, EltTy.bits .f32 = 32 ∨ (Rect.block (s := S50000x32) S2000x32.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x32.size a ≤ S50000x32.size a
  hwx6_5 : ∀ i : grid6.Coords, EltTy.bits .f32 = 32 ∨ (Rect.block (s := S50000x32) S2000x32.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x32.size a ≤ S50000x32.size a
  hwx6_6 : ∀ i : grid6.Coords, EltTy.bits .f32 = 32 ∨ (Rect.block (s := S50000x32) S2000x32.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x32.size a ≤ S50000x32.size a
  hwx6_7 : ∀ i : grid6.Coords, EltTy.bits .f32 = 32 ∨ (Rect.block (s := S50000x32) S2000x32.size (cc6_transform_7 i) (hinb6_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S2000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S2000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v89) S1x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S2000x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v90) S1x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg10) S2000x32.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v91_0) S2000x32.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v91_1) S2000x32.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v91_2) S2000x32.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x32 : Shape := ⟨2, ![50000, 32]⟩
abbrev S2x800000 : Shape := ⟨2, ![2, 800000]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S50000x64 : Shape := ⟨2, ![50000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S850000x32 : Shape := ⟨2, ![850000, 32]⟩
abbrev S1x32 : Shape := ⟨2, ![1, 32]⟩

abbrev nBuf : Space → Nat
  | .hbm => 235
  | .vmem => 0
  | .smem => 0
  | _ => 0

abbrev hbmTy0_0 (i : Nat) : BufTy := match i % 128 with
  | 0 => ⟨S50000x32, .f32⟩
  | 1 => ⟨S2x800000, .i32⟩
  | 2 => ⟨S32x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S64x32, .f32⟩
  | 9 => ⟨S32, .f32⟩
  | 10 => ⟨S50000x32, .f32⟩
  | 11 => ⟨S1x800000, .i32⟩
  | 12 => ⟨S800000, .i32⟩
  | 13 => ⟨S1x800000, .i32⟩
  | 14 => ⟨S800000, .i32⟩
  | 15 => ⟨S50000x64, .f32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x1, .f32⟩
  | 58 => ⟨S850000x64, .f32⟩
  | 59 => ⟨S850000x64, .f32⟩
  | 60 => ⟨S_, .f32⟩
  | 61 => ⟨S50000x64, .f32⟩
  | 62 => ⟨S850000x1, .i32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S50000x64, .f32⟩
  | 71 => ⟨S50000, .i32⟩
  | 72 => ⟨S850000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x64, .f32⟩
  | 112 => ⟨S850000x1, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x32, .f32⟩
  | 126 => ⟨S50000, .i32⟩
  | 127 => ⟨S850000, .i32⟩
  | _ => ⟨S50000x32, .f32⟩

abbrev hbmTy0_1 (i : Nat) : BufTy := match i % 128 with
  | 0 => ⟨S850000, .i32⟩
  | 1 => ⟨S_, .f32⟩
  | 2 => ⟨S850000, .f32⟩
  | 3 => ⟨S_, .f32⟩
  | 4 => ⟨S50000, .f32⟩
  | 5 => ⟨S850000x1, .i32⟩
  | 6 => ⟨S50000, .f32⟩
  | 7 => ⟨S_, .f32⟩
  | 8 => ⟨S50000, .f32⟩
  | 9 => ⟨S50000, .f32⟩
  | 10 => ⟨S50000, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000, .f32⟩
  | 29 => ⟨S850000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000x32, .f32⟩
  | 39 => ⟨S850000x1, .f32⟩
  | 40 => ⟨S850000x32, .f32⟩
  | 41 => ⟨S850000x32, .f32⟩
  | 42 => ⟨S_, .f32⟩
  | 43 => ⟨S50000x32, .f32⟩
  | 44 => ⟨S850000x1, .i32⟩
  | 45 => ⟨S50000x32, .f32⟩
  | 46 => ⟨S1x32, .f32⟩
  | 47 => ⟨S50000x32, .f32⟩
  | 48 => ⟨S50000x32, .f32⟩
  | 49 => ⟨S50000x32, .f32⟩
  | 50 => ⟨S50000, .i32⟩
  | 51 => ⟨S850000, .i32⟩
  | 52 => ⟨S850000, .i32⟩
  | 53 => ⟨S_, .f32⟩
  | 54 => ⟨S850000, .f32⟩
  | 55 => ⟨S_, .f32⟩
  | 56 => ⟨S50000, .f32⟩
  | 57 => ⟨S850000x1, .i32⟩
  | 58 => ⟨S50000, .f32⟩
  | 59 => ⟨S_, .f32⟩
  | 60 => ⟨S50000, .f32⟩
  | 61 => ⟨S50000, .f32⟩
  | 62 => ⟨S50000, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000, .f32⟩
  | 81 => ⟨S850000, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x32, .f32⟩
  | 91 => ⟨S850000x1, .f32⟩
  | 92 => ⟨S850000x32, .f32⟩
  | 93 => ⟨S850000x32, .f32⟩
  | 94 => ⟨S_, .f32⟩
  | 95 => ⟨S50000x32, .f32⟩
  | 96 => ⟨S850000x1, .i32⟩
  | 97 => ⟨S50000x32, .f32⟩
  | 98 => ⟨S1x32, .f32⟩
  | 99 => ⟨S50000x32, .f32⟩
  | 100 => ⟨S50000x32, .f32⟩
  | 101 => ⟨S_, .f32⟩
  | 102 => ⟨S50000x32, .f32⟩
  | 103 => ⟨S50000x32, .f32⟩
  | 104 => ⟨S50000x32, .f32⟩
  | 105 => ⟨S50000x32, .f32⟩
  | 106 => ⟨S50000x32, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_call1_cst : Ref sig .tc := ⟨.hbm, 122, rfl⟩
abbrev main_call1_v0 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_cst_19 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_20 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_21 : Ref sig .tc := ⟨.hbm, 139, rfl⟩
abbrev main_v101 : Ref sig .tc := ⟨.hbm, 140, rfl⟩
abbrev main_v102 : Ref sig .tc := ⟨.hbm, 141, rfl⟩
abbrev main_c_22 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_23 : Ref sig .tc := ⟨.hbm, 148, rfl⟩
abbrev main_v108 : Ref sig .tc := ⟨.hbm, 149, rfl⟩
abbrev main_v109 : Ref sig .tc := ⟨.hbm, 150, rfl⟩
abbrev main_c_24 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_c_25 : Ref sig .tc := ⟨.hbm, 158, rfl⟩
abbrev main_v116 : Ref sig .tc := ⟨.hbm, 159, rfl⟩
abbrev main_v117 : Ref sig .tc := ⟨.hbm, 160, rfl⟩
abbrev main_c_26 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_27 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_28 : Ref sig .tc := ⟨.hbm, 181, rfl⟩
abbrev main_v136 : Ref sig .tc := ⟨.hbm, 182, rfl⟩
abbrev main_cst_29 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_30 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_c_31 : Ref sig .tc := ⟨.hbm, 191, rfl⟩
abbrev main_v143 : Ref sig .tc := ⟨.hbm, 192, rfl⟩
abbrev main_v144 : Ref sig .tc := ⟨.hbm, 193, rfl⟩
abbrev main_c_32 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_c_33 : Ref sig .tc := ⟨.hbm, 200, rfl⟩
abbrev main_v150 : Ref sig .tc := ⟨.hbm, 201, rfl⟩
abbrev main_v151 : Ref sig .tc := ⟨.hbm, 202, rfl⟩
abbrev main_c_34 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_35 : Ref sig .tc := ⟨.hbm, 210, rfl⟩
abbrev main_v158 : Ref sig .tc := ⟨.hbm, 211, rfl⟩
abbrev main_v159 : Ref sig .tc := ⟨.hbm, 212, rfl⟩
abbrev main_c_36 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_37 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_cst_38 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x32_S32x64_S50000x64_1_0_0_1_n_n_wf : DotDims.WF S50000x32 S32x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.LastBoundary.lean ====
/-
  The kernel's program, run to its return, read at its last boundary.

  The program is five stretches of host operations and seven grid calls.  Its run passes through thirteen boundaries;
  at each the contents of every buffer are a known function of the launch memory: a stretch applies its operations
  to what it finds, a call leaves each of its arrays at what its grid points wrote back and every other buffer alone.
  Every weakly fair execution terminates without a fault in a state whose buffers hold the last boundary's contents.
  So any property of the final memory that follows from "every buffer holds the last boundary's contents" holds of
  every final state — in particular the three result arrays are the last boundary's, and the eleven argument arrays
  are as launched, since no stretch and no call writes one.
-/
import proofs.«118265_j22986664968329_2_alg».proof.Proof.Gen.KernelIdeal.Frame

set_option maxRecDepth 16384

noncomputable section

namespace Cert.KernelIdeal.LastBoundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every weakly fair execution from the launch memory terminates, nothing faulting, in a state of which any
    consequence of "every unscoped buffer holds the last boundary's contents" holds. -/
theorem ends_at {Q : PUnit × MemSt nD τ sig (Elt F) → Prop}
    (hQ : ∀ s : MemSt nD τ sig (Elt F),
      (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

/-- The three results at the last boundary's contents, the eleven arguments as launched. -/
theorem results : θ_run defs (onTc (τ := τ) (main (F := F))) ⟨m, fun _ => 0, ρ⟩ (fun r => ∀ c : Dev nD,
      r.2.mem ((c.tc : Thread nD τ).loc main_v91_0) = W12 m ρ c (Proc.devRef .tc main_v91_0)
      ∧ r.2.mem ((c.tc : Thread nD τ).loc main_v91_1) = W12 m ρ c (Proc.devRef .tc main_v91_1)
      ∧ r.2.mem ((c.tc : Thread nD τ).loc main_v91_2) = W12 m ρ c (Proc.devRef .tc main_v91_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  ends_at m ρ (fun s h c =>
    ⟨h c _ (mem_uc main_v91_0 (by decide)),
     h c _ (mem_uc main_v91_1 (by decide)),
     h c _ (mem_uc main_v91_2 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c)⟩)

end Cert.KernelIdeal.LastBoundary

end
-- ==== Proof.Kept.lean ====
/-
  Buffers no segment writes on the way to their reader.

  Each of the eleven argument arrays is read by exactly one later segment (a host stretch or a grid call) and written by
  none, so at the boundary where it is read it still holds the launch contents.  The two edge lists and the edge
  normalisation, written once before the first call, are read again before each of the four scatter-adds and are not
  written in between.  The second hidden layer is read by both head projections, and the first head's propagated
  features wait, untouched, for the last call.  A host stretch changes only its operations' result buffers; a grid
  call changes only its own arrays, and leaves an input array as it found it.
-/
import proofs.«118265_j22986664968329_2_alg».proof.Proof.Gen.KernelIdeal.Frame

set_option maxRecDepth 16384

noncomputable section

namespace Cert.KernelIdeal.Kept

open Cert.KernelIdeal Cert.KernelIdeal.Gen Idealize.ShloMosaic Idealize.ShloMosaic.TcCoe Idealize.ShloMosaic.StableHlo

variable {F : FTy → Type} [FloatOps F]
variable (m : (ℓ : Loc nD τ sig) → Buf (Elt F) ℓ) (ρ : Dev nD → PrngReg)

/-! ## A host stretch leaves alone every buffer that is no result of its operations -/

theorem over1_arg0 (c : Dev nD) : W1 m ρ c (Proc.devRef .tc main_arg0) = W0 m ρ c (Proc.devRef .tc main_arg0) := by
  show StableHlo.after hostOps0 (W0 m ρ c) (Proc.devRef .tc main_arg0) = _
  after_results

theorem over1_arg2 (c : Dev nD) : W1 m ρ c (Proc.devRef .tc main_arg2) = W0 m ρ c (Proc.devRef .tc main_arg2) := by
  show StableHlo.after hostOps0 (W0 m ρ c) (Proc.devRef .tc main_arg2) = _
  after_results

theorem over1_arg3 (c : Dev nD) : W1 m ρ c (Proc.devRef .tc main_arg3) = W0 m ρ c (Proc.devRef .tc main_arg3) := by
  show StableHlo.after hostOps0 (W0 m ρ c) (Proc.devRef .tc main_arg3) = _
  after_results

theorem over1_arg4 (c : Dev nD) : W1 m ρ c (Proc.devRef .tc main_arg4) = W0 m ρ c (Proc.devRef .tc main_arg4) := by
  show StableHlo.after hostOps0 (W0 m ρ c) (Proc.devRef .tc main_arg4) = _
  after_results

theorem over3_arg4 (c : Dev nD) : W3 m ρ c (Proc.devRef .tc main_arg4) = W2 m ρ c (Proc.devRef .tc main_arg4) := by
  show StableHlo.after hostOps1 (W2 m ρ c) (Proc.devRef .tc main_arg4) = _
  after_results

theorem over1_arg5 (c : Dev nD) : W1 m ρ c (Proc.devRef .tc main_arg5) = W0 m ρ c (Proc.devRef .tc main_arg5) := by
  show StableHlo.after hostOps0 (W0 m ρ c) (Proc.devRef .tc main_arg5) = _
  after_results

theorem over3_arg5 (c : Dev nD) : W3 m ρ c (Proc.devRef .tc main_arg5) = W2 m ρ c (Proc.devRef .tc main_arg5) := by
  show StableHlo.after hostOps1 (W2 m ρ c) (Proc.devRef .tc main_arg5) = _
  after_results

theorem over1_arg6 (c : Dev nD) : W1 m ρ c (Proc.devRef .tc main_arg6) = W0 m ρ c (Proc.devRef .tc main_arg6) := by
  show StableHlo.after hostOps0 (W0 m ρ c) (Proc.devRef .tc main_arg6) = _
  after_results

theorem over3_arg6 (c : Dev nD) : W3 m ρ c (Proc.devRef .tc main_arg6) = W2 m ρ c (Proc.devRef .tc main_arg6) := by
  show StableHlo.after hostOps1 (W2 m ρ c) (Proc.devRef .tc main_arg6) = _
  after_results

theorem over6_arg6 (c : Dev nD) : W6 m ρ c (Proc.devRef .tc main_arg6) = W5 m ρ c (Proc.devRef .tc main_arg6) := by
  show StableHlo.after hostOps3 (W5 m ρ c) (Proc.devRef .tc main_arg6) = _
  after_results

theorem over1_arg8 (c : Dev nD) : W1 m ρ c (Proc.devRef .tc main_arg8) = W0 m ρ c (Proc.devRef .tc main_arg8) := by
  show StableHlo.after hostOps0 (W0 m ρ c) (Proc.devRef .tc main_arg8) = _
  after_results

theorem over3_arg8 (c : Dev nD) : W3 m ρ c (Proc.devRef .tc main_arg8) = W2 m ρ c (Proc.devRef .tc main_arg8) := by
  show StableHlo.after hostOps1 (W2 m ρ c) (Proc.devRef .tc main_arg8) = _
  after_results

theorem over6_arg8 (c : Dev nD) : W6 m ρ c (Proc.devRef .tc main_arg8) = W5 m ρ c (Proc.devRef .tc main_arg8) := by
  show StableHlo.after hostOps3 (W5 m ρ c) (Proc.devRef .tc main_arg8) = _
  after_results

theorem over9_arg8 (c : Dev nD) : W9 m ρ c (Proc.devRef .tc main_arg8) = W8 m ρ c (Proc.devRef .tc main_arg8) := by
  show StableHlo.after hostOps5 (W8 m ρ c) (Proc.devRef .tc main_arg8) = _
  after_results

theorem over1_arg7 (c : Dev nD) : W1 m ρ c (Proc.devRef .tc main_arg7) = W0 m ρ c (Proc.devRef .tc main_arg7) := by
  show StableHlo.after hostOps0 (W0 m ρ c) (Proc.devRef .tc main_arg7) = _
  after_results

theorem over3_arg7 (c : Dev nD) : W3 m ρ c (Proc.devRef .tc main_arg7) = W2 m ρ c (Proc.devRef .tc main_arg7) := by
  show StableHlo.after hostOps1 (W2 m ρ c) (Proc.devRef .tc main_arg7) = _
  after_results

theorem over6_arg7 (c : Dev nD) : W6 m ρ c (Proc.devRef .tc main_arg7) = W5 m ρ c (Proc.devRef .tc main_arg7) := by
  show StableHlo.after hostOps3 (W5 m ρ c) (Proc.devRef .tc main_arg7) = _
  after_results

theorem over9_arg7 (c : Dev nD) : W9 m ρ c (Proc.devRef .tc main_arg7) = W8 m ρ c (Proc.devRef .tc main_arg7) := by
  show StableHlo.after hostOps5 (W8 m ρ c) (Proc.devRef .tc main_arg7) = _
  after_results

theorem over1_arg9 (c : Dev nD) : W1 m ρ c (Proc.devRef .tc main_arg9) = W0 m ρ c (Proc.devRef .tc main_arg9) := by
  show StableHlo.after hostOps0 (W0 m ρ c) (Proc.devRef .tc main_arg9) = _
  after_results

theorem over3_arg9 (c : Dev nD) : W3 m ρ c (Proc.devRef .tc main_arg9) = W2 m ρ c (Proc.devRef .tc main_arg9) := by
  show StableHlo.after hostOps1 (W2 m ρ c) (Proc.devRef .tc main_arg9) = _
  after_results

theorem over6_arg9 (c : Dev nD) : W6 m ρ c (Proc.devRef .tc main_arg9) = W5 m ρ c (Proc.devRef .tc main_arg9) := by
  show StableHlo.after hostOps3 (W5 m ρ c) (Proc.devRef .tc main_arg9) = _
  after_results

theorem over9_arg9 (c : Dev nD) : W9 m ρ c (Proc.devRef .tc main_arg9) = W8 m ρ c (Proc.devRef .tc main_arg9) := by
  show StableHlo.after hostOps5 (W8 m ρ c) (Proc.devRef .tc main_arg9) = _
  after_results

theorem over1_arg10 (c : Dev nD) : W1 m ρ c (Proc.devRef .tc main_arg10) = W0 m ρ c (Proc.devRef .tc main_arg10) := by
  show StableHlo.after hostOps0 (W0 m ρ c) (Proc.devRef .tc main_arg10) = _
  after_results

theorem over3_arg10 (c : Dev nD) : W3 m ρ c (Proc.devRef .tc main_arg10) = W2 m ρ c (Proc.devRef .tc main_arg10) := by
  show StableHlo.after hostOps1 (W2 m ρ c) (Proc.devRef .tc main_arg10) = _
  after_results

theorem over6_arg10 (c : Dev nD) : W6 m ρ c (Proc.devRef .tc main_arg10) = W5 m ρ c (Proc.devRef .tc main_arg10) := by
  show StableHlo.after hostOps3 (W5 m ρ c) (Proc.devRef .tc main_arg10) = _
  after_results

theorem over9_arg10 (c : Dev nD) : W9 m ρ c (Proc.devRef .tc main_arg10) = W8 m ρ c (Proc.devRef .tc main_arg10) := by
  show StableHlo.after hostOps5 (W8 m ρ c) (Proc.devRef .tc main_arg10) = _
  after_results

theorem over11_arg10 (c : Dev nD) : W11 m ρ c (Proc.devRef .tc main_arg10) = W10 m ρ c (Proc.devRef .tc main_arg10) := by
  show StableHlo.after hostOps6 (W10 m ρ c) (Proc.devRef .tc main_arg10) = _
  after_results

theorem over3_v5 (c : Dev nD) : W3 m ρ c (Proc.devRef .tc main_v5) = W2 m ρ c (Proc.devRef .tc main_v5) := by
  show StableHlo.after hostOps1 (W2 m ρ c) (Proc.devRef .tc main_v5) = _
  after_results

theorem over6_v5 (c : Dev nD) : W6 m ρ c (Proc.devRef .tc main_v5) = W5 m ρ c (Proc.devRef .tc main_v5) := by
  show StableHlo.after hostOps3 (W5 m ρ c) (Proc.devRef .tc main_v5) = _
  after_results

theorem over9_v5 (c : Dev nD) : W9 m ρ c (Proc.devRef .tc main_v5) = W8 m ρ c (Proc.devRef .tc main_v5) := by
  show StableHlo.after hostOps5 (W8 m ρ c) (Proc.devRef .tc main_v5) = _
  after_results

theorem over3_v6 (c : Dev nD) : W3 m ρ c (Proc.devRef .tc main_v6) = W2 m ρ c (Proc.devRef .tc main_v6) := by
  show StableHlo.after hostOps1 (W2 m ρ c) (Proc.devRef .tc main_v6) = _
  after_results

theorem over6_v6 (c : Dev nD) : W6 m ρ c (Proc.devRef .tc main_v6) = W5 m ρ c (Proc.devRef .tc main_v6) := by
  show StableHlo.after hostOps3 (W5 m ρ c) (Proc.devRef .tc main_v6) = _
  after_results

theorem over9_v6 (c : Dev nD) : W9 m ρ c (Proc.devRef .tc main_v6) = W8 m ρ c (Proc.devRef .tc main_v6) := by
  show StableHlo.after hostOps5 (W8 m ρ c) (Proc.devRef .tc main_v6) = _
  after_results

theorem over3_v28 (c : Dev nD) : W3 m ρ c (Proc.devRef .tc main_v28) = W2 m ρ c (Proc.devRef .tc main_v28) := by
  show StableHlo.after hostOps1 (W2 m ρ c) (Proc.devRef .tc main_v28) = _
  after_results

theorem over6_v28 (c : Dev nD) : W6 m ρ c (Proc.devRef .tc main_v28) = W5 m ρ c (Proc.devRef .tc main_v28) := by
  show StableHlo.after hostOps3 (W5 m ρ c) (Proc.devRef .tc main_v28) = _
  after_results

theorem over9_v28 (c : Dev nD) : W9 m ρ c (Proc.devRef .tc main_v28) = W8 m ρ c (Proc.devRef .tc main_v28) := by
  show StableHlo.after hostOps5 (W8 m ρ c) (Proc.devRef .tc main_v28) = _
  after_results

theorem over9_v60 (c : Dev nD) : W9 m ρ c (Proc.devRef .tc main_v60) = W8 m ρ c (Proc.devRef .tc main_v60) := by
  show StableHlo.after hostOps5 (W8 m ρ c) (Proc.devRef .tc main_v60) = _
  after_results

theorem over11_v74 (c : Dev nD) : W11 m ρ c (Proc.devRef .tc main_v74) = W10 m ρ c (Proc.devRef .tc main_v74) := by
  show StableHlo.after hostOps6 (W10 m ρ c) (Proc.devRef .tc main_v74) = _
  after_results

/-! ## From the reader's boundary back to the writer's -/

theorem arg0_at1 (c : Dev nD) : W1 m ρ c (Proc.devRef .tc main_arg0) = m ((c : Thread nD τ).loc main_arg0) :=
  (over1_arg0 m ρ c).trans rfl

theorem arg2_at1 (c : Dev nD) : W1 m ρ c (Proc.devRef .tc main_arg2) = m ((c : Thread nD τ).loc main_arg2) :=
  (over1_arg2 m ρ c).trans rfl

theorem arg3_at2 (c : Dev nD) : W2 m ρ c (Proc.devRef .tc main_arg3) = m ((c : Thread nD τ).loc main_arg3) :=
  (W2_of_ne m ρ c main_arg3 (by decide)).trans ((over1_arg3 m ρ c).trans rfl)

theorem arg4_at4 (c : Dev nD) : W4 m ρ c (Proc.devRef .tc main_arg4) = m ((c : Thread nD τ).loc main_arg4) :=
  (W4_of_ne m ρ c main_arg4 (by decide)).trans ((over3_arg4 m ρ c).trans ((W2_of_ne m ρ c main_arg4 (by decide)).trans ((over1_arg4 m ρ c).trans rfl)))

theorem arg5_at5 (c : Dev nD) : W5 m ρ c (Proc.devRef .tc main_arg5) = m ((c : Thread nD τ).loc main_arg5) :=
  (W5_of_ne m ρ c main_arg5 (by decide)).trans ((W4_of_ne m ρ c main_arg5 (by decide)).trans ((over3_arg5 m ρ c).trans ((W2_of_ne m ρ c main_arg5 (by decide)).trans ((over1_arg5 m ρ c).trans rfl))))

theorem arg6_at7 (c : Dev nD) : W7 m ρ c (Proc.devRef .tc main_arg6) = m ((c : Thread nD τ).loc main_arg6) :=
  (W7_of_ne m ρ c main_arg6 (by decide)).trans ((over6_arg6 m ρ c).trans ((W5_of_ne m ρ c main_arg6 (by decide)).trans ((W4_of_ne m ρ c main_arg6 (by decide)).trans ((over3_arg6 m ρ c).trans ((W2_of_ne m ρ c main_arg6 (by decide)).trans ((over1_arg6 m ρ c).trans rfl))))))

theorem arg8_at9 (c : Dev nD) : W9 m ρ c (Proc.devRef .tc main_arg8) = m ((c : Thread nD τ).loc main_arg8) :=
  (over9_arg8 m ρ c).trans ((W8_of_ne m ρ c main_arg8 (by decide)).trans ((W7_of_ne m ρ c main_arg8 (by decide)).trans ((over6_arg8 m ρ c).trans ((W5_of_ne m ρ c main_arg8 (by decide)).trans ((W4_of_ne m ρ c main_arg8 (by decide)).trans ((over3_arg8 m ρ c).trans ((W2_of_ne m ρ c main_arg8 (by decide)).trans ((over1_arg8 m ρ c).trans rfl))))))))

theorem arg7_at10 (c : Dev nD) : W10 m ρ c (Proc.devRef .tc main_arg7) = m ((c : Thread nD τ).loc main_arg7) :=
  (W10_of_ne m ρ c main_arg7 (by decide)).trans ((over9_arg7 m ρ c).trans ((W8_of_ne m ρ c main_arg7 (by decide)).trans ((W7_of_ne m ρ c main_arg7 (by decide)).trans ((over6_arg7 m ρ c).trans ((W5_of_ne m ρ c main_arg7 (by decide)).trans ((W4_of_ne m ρ c main_arg7 (by decide)).trans ((over3_arg7 m ρ c).trans ((W2_of_ne m ρ c main_arg7 (by decide)).trans ((over1_arg7 m ρ c).trans rfl)))))))))

theorem arg9_at10 (c : Dev nD) : W10 m ρ c (Proc.devRef .tc main_arg9) = m ((c : Thread nD τ).loc main_arg9) :=
  (W10_of_ne m ρ c main_arg9 (by decide)).trans ((over9_arg9 m ρ c).trans ((W8_of_ne m ρ c main_arg9 (by decide)).trans ((W7_of_ne m ρ c main_arg9 (by decide)).trans ((over6_arg9 m ρ c).trans ((W5_of_ne m ρ c main_arg9 (by decide)).trans ((W4_of_ne m ρ c main_arg9 (by decide)).trans ((over3_arg9 m ρ c).trans ((W2_of_ne m ρ c main_arg9 (by decide)).trans ((over1_arg9 m ρ c).trans rfl)))))))))

theorem arg10_at11 (c : Dev nD) : W11 m ρ c (Proc.devRef .tc main_arg10) = m ((c : Thread nD τ).loc main_arg10) :=
  (over11_arg10 m ρ c).trans ((W10_of_ne m ρ c main_arg10 (by decide)).trans ((over9_arg10 m ρ c).trans ((W8_of_ne m ρ c main_arg10 (by decide)).trans ((W7_of_ne m ρ c main_arg10 (by decide)).trans ((over6_arg10 m ρ c).trans ((W5_of_ne m ρ c main_arg10 (by decide)).trans ((W4_of_ne m ρ c main_arg10 (by decide)).trans ((over3_arg10 m ρ c).trans ((W2_of_ne m ρ c main_arg10 (by decide)).trans ((over1_arg10 m ρ c).trans rfl))))))))))

theorem v5_at2 (c : Dev nD) : W2 m ρ c (Proc.devRef .tc main_v5) = W1 m ρ c (Proc.devRef .tc main_v5) :=
  (W2_of_ne m ρ c main_v5 (by decide))

theorem v5_at5 (c : Dev nD) : W5 m ρ c (Proc.devRef .tc main_v5) = W1 m ρ c (Proc.devRef .tc main_v5) :=
  (W5_of_ne m ρ c main_v5 (by decide)).trans ((W4_of_ne m ρ c main_v5 (by decide)).trans ((over3_v5 m ρ c).trans (v5_at2 m ρ c)))

theorem v5_at8 (c : Dev nD) : W8 m ρ c (Proc.devRef .tc main_v5) = W1 m ρ c (Proc.devRef .tc main_v5) :=
  (W8_of_ne m ρ c main_v5 (by decide)).trans ((W7_of_ne m ρ c main_v5 (by decide)).trans ((over6_v5 m ρ c).trans (v5_at5 m ρ c)))

theorem v5_at10 (c : Dev nD) : W10 m ρ c (Proc.devRef .tc main_v5) = W1 m ρ c (Proc.devRef .tc main_v5) :=
  (W10_of_ne m ρ c main_v5 (by decide)).trans ((over9_v5 m ρ c).trans (v5_at8 m ρ c))

theorem v6_at2 (c : Dev nD) : W2 m ρ c (Proc.devRef .tc main_v6) = W1 m ρ c (Proc.devRef .tc main_v6) :=
  (W2_of_ne m ρ c main_v6 (by decide))

theorem v6_at5 (c : Dev nD) : W5 m ρ c (Proc.devRef .tc main_v6) = W1 m ρ c (Proc.devRef .tc main_v6) :=
  (W5_of_ne m ρ c main_v6 (by decide)).trans ((W4_of_ne m ρ c main_v6 (by decide)).trans ((over3_v6 m ρ c).trans (v6_at2 m ρ c)))

theorem v6_at8 (c : Dev nD) : W8 m ρ c (Proc.devRef .tc main_v6) = W1 m ρ c (Proc.devRef .tc main_v6) :=
  (W8_of_ne m ρ c main_v6 (by decide)).trans ((W7_of_ne m ρ c main_v6 (by decide)).trans ((over6_v6 m ρ c).trans (v6_at5 m ρ c)))

theorem v6_at10 (c : Dev nD) : W10 m ρ c (Proc.devRef .tc main_v6) = W1 m ρ c (Proc.devRef .tc main_v6) :=
  (W10_of_ne m ρ c main_v6 (by decide)).trans ((over9_v6 m ρ c).trans (v6_at8 m ρ c))

theorem v28_at2 (c : Dev nD) : W2 m ρ c (Proc.devRef .tc main_v28) = W1 m ρ c (Proc.devRef .tc main_v28) :=
  (W2_of_ne m ρ c main_v28 (by decide))

theorem v28_at5 (c : Dev nD) : W5 m ρ c (Proc.devRef .tc main_v28) = W1 m ρ c (Proc.devRef .tc main_v28) :=
  (W5_of_ne m ρ c main_v28 (by decide)).trans ((W4_of_ne m ρ c main_v28 (by decide)).trans ((over3_v28 m ρ c).trans (v28_at2 m ρ c)))

theorem v28_at8 (c : Dev nD) : W8 m ρ c (Proc.devRef .tc main_v28) = W1 m ρ c (Proc.devRef .tc main_v28) :=
  (W8_of_ne m ρ c main_v28 (by decide)).trans ((W7_of_ne m ρ c main_v28 (by decide)).trans ((over6_v28 m ρ c).trans (v28_at5 m ρ c)))

theorem v28_at10 (c : Dev nD) : W10 m ρ c (Proc.devRef .tc main_v28) = W1 m ρ c (Proc.devRef .tc main_v28) :=
  (W10_of_ne m ρ c main_v28 (by decide)).trans ((over9_v28 m ρ c).trans (v28_at8 m ρ c))

theorem v60_at9 (c : Dev nD) : W9 m ρ c (Proc.devRef .tc main_v60) = W7 m ρ c (Proc.devRef .tc main_v60) :=
  (over9_v60 m ρ c).trans ((W8_arr m ρ c 0).trans (((dat4 (V7 m ρ) c).arrAt_in 0 rfl _).trans (A_eq4 (V7 m ρ) c 0)))

theorem v74_at11 (c : Dev nD) : W11 m ρ c (Proc.devRef .tc main_v74) = W9 m ρ c (Proc.devRef .tc main_v74) :=
  (over11_v74 m ρ c).trans (W10_of_ne m ρ c main_v74 (by decide))

end Cert.KernelIdeal.Kept

end
-- ==== Proof.Graph.lean ====
/-
  Before the first call: the edge lists with self-loops appended, and the symmetric degree normalisation.

  From the 2 × 800000 edge array the program takes the source row and the target row, appends the 50000 node numbers
  to each (a self-loop per node), counts each node's in-degree by scatter-adding ones at the targets, clamps the
  degree below at one, takes the reciprocal square root, and multiplies its values gathered at the sources by its
  values gathered at the targets (a negative index first wrapped by 50000).  These are the reference's operations
  %0 … %29 on the same edge array, one for one: the source list is its %6, the target list its %7, the
  normalisation its %29.  The feature matrix and the first weight are not written on the way.
-/
import proofs.«118265_j22986664968329_2_alg».proof.Proof.Gen.KernelIdeal.Frame
import proofs.«118265_j22986664968329_2_alg».proof.Proof.Gen.ReferenceIdeal.Read

set_option maxRecDepth 16384

noncomputable section

namespace Cert.KernelIdeal.Graph

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg)

/-- The source list with the self-loops appended. -/
theorem src (c : Dev nD) : W1 m ρ c (Proc.devRef .tc main_v5)
    = Cert.ReferenceIdeal.Read.val_main_v6 (F := Ideal) (m ((c : Thread nD τ).loc main_arg1)) := by
  show StableHlo.after hostOps0 (W0 m ρ c) (Proc.devRef .tc main_v5) = _
  after_results
  rfl

/-- The target list with the self-loops appended. -/
theorem dst (c : Dev nD) : W1 m ρ c (Proc.devRef .tc main_v6)
    = Cert.ReferenceIdeal.Read.val_main_v7 (F := Ideal) (m ((c : Thread nD τ).loc main_arg1)) := by
  show StableHlo.after hostOps0 (W0 m ρ c) (Proc.devRef .tc main_v6) = _
  after_results
  rfl

/-- The normalisation of every edge: the reciprocal root degrees at its two ends, multiplied. -/
theorem norm (c : Dev nD) : W1 m ρ c (Proc.devRef .tc main_v28)
    = Cert.ReferenceIdeal.Read.val_main_v29 (F := Ideal) (m ((c : Thread nD τ).loc main_arg1)) := by
  show StableHlo.after hostOps0 (W0 m ρ c) (Proc.devRef .tc main_v28) = _
  after_results_simp
  rfl

end Cert.KernelIdeal.Graph

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.Proj0.lean ====
/-
  The first projection, x · W1, as the 25 grid points of the first call leave it.

  Point t multiplies rows 2000·t … 2000·t + 1999 of x by the whole of W1 into a zero accumulator.  Rounding the two
  operands to bf16 on the way in changes nothing over the extended reals, so the block's (p, q) entry is the sum over
  k < 32 of x(2000·t + p, k) · W1(k, q): point t writes back rows 2000·t … 2000·t + 1999 of the 50000 × 64 array
  whose (r, q) entry is ∑ k, x(r, k) · W1(k, q).  Every row lies in exactly one of the 25 blocks (row r in block
  r / 2000), so after the last point the array holds that product whole.
-/
import proofs.«118265_j22986664968329_2_alg».proof.Proof.Gen.KernelIdeal.Frame
import proofs.«118265_j22986664968329_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Proj0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The left operand the call finds, as a 50000 × 32 array of extended reals. -/
abbrev lft (c : Dev nD) : S50000x32.Idx → EReal := V c main_arg0
/-- The right operand the call finds, as a 32 × 64 array of extended reals. -/
abbrev rgt (c : Dev nD) : S32x64.Idx → EReal := V c main_arg2

/-- The product of a 50000 × 32 array by a 32 × 64 array: entry (r, q) is the sum over k of left(r, k) · right(k, q). -/
def prod (x : S50000x32.Idx → EReal) (w : S32x64.Idx → EReal) : S50000x64.Idx → EReal :=
  fun i => ∑ k : Fin 32, x (ix2 (i 0) k) * w (ix2 k (i 1))

/-- In the left operand of the block product, the row coordinate of the index read for output (p, q) is p. -/
theorem lhs_row (j : S2000x64.Idx) (k : dot_S2000x32_S32x64_S2000x64_1_0_0_1_n_n.contr.Idx) :
    (dot_S2000x32_S32x64_S2000x64_1_0_0_1_n_n.lhsIdx j k 0).val = (j 0).val := by
  unfold DotDims.lhsIdx
  rw [dif_neg (show ¬(0 : Fin S2000x32.rank) ∈ dot_S2000x32_S32x64_S2000x64_1_0_0_1_n_n.lhsBatch by decide),
    dif_pos (show (0 : Fin S2000x32.rank) ∈ dot_S2000x32_S32x64_S2000x64_1_0_0_1_n_n.lhsNonContracting by decide)]
  rfl

/-- In the right operand, the column coordinate of the index read for output (p, q) is q. -/
theorem rhs_col (j : S2000x64.Idx) (k : dot_S2000x32_S32x64_S2000x64_1_0_0_1_n_n.contr.Idx) :
    (dot_S2000x32_S32x64_S2000x64_1_0_0_1_n_n.rhsIdx j k 1).val = (j 1).val := by
  unfold DotDims.rhsIdx
  rw [dif_neg (show ¬(1 : Fin S32x64.rank) ∈ dot_S2000x32_S32x64_S2000x64_1_0_0_1_n_n.rhsBatch by decide),
    dif_pos (show (1 : Fin S32x64.rank) ∈ dot_S2000x32_S32x64_S2000x64_1_0_0_1_n_n.rhsNonContracting by decide)]
  rfl

/-- The body's stored value at entry (p, q) of the block: the plain sum over k of the loaded blocks' entries (the
    rounding of the operands is the identity, the accumulator starts at zero). -/
theorem pay_apply (x0 : Vec Ideal S2000x32 .f32) (x1 : Vec Ideal S32x64 .f32) (p : Fin 2000) (q : Fin 64) :
    k0_pay1 (F := Ideal) x0 x1 (ix2 p q) = ∑ k : Fin 32, x0 (ix2 p k) * x1 (ix2 k q) := by
  unfold k0_pay1
  exact Cert.LibPlainDot.matmul_zero_apply dot_S2000x32_S32x64_S2000x64_1_0_0_1_n_n rfl rfl rfl rfl lhs_row rhs_col none
    (truncf .bf16 x0 bitsLt_bf16_f32) (truncf .bf16 x1 bitsLt_bf16_f32) p q

/-- The printed index maps over the grid: x's block and the result's block move together along the rows (block t at
    point t), W1's block never moves, and no block moves along the columns. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 25 row blocks is some point's. -/
theorem idx_onto : ∀ r : Fin 25, ∃ t : Fin cfg0.N, win0_2.index t (0 : Fin 2) = r.val ∧ win0_2.index t (1 : Fin 2) = 0 :=
  (by decide +kernel : ∀ r : Fin 25, ∃ t : Fin grid0.N, win0_2.index t (0 : Fin 2) = r.val ∧ win0_2.index t (1 : Fin 2) = 0)

/-- What point t writes back is block t of the product of the arrays the region finds. -/
theorem flushed_eq (c : Dev nD) (t : Fin cfg0.N) :
    (dat0 V c).flushed 2 t = ((cfg0.win 2).blk t).view.read (Elt Ideal) (prod (lft V c) (rgt V c)) := by
  show (cfg0.win 2).cut (grid0.coords t) ((dat0 V c).after 2 t) = _
  rw [after0_2]
  unfold out0_2
  rw [View.canon_unit_zero hz]
  simp only [View.ld_unit_zero (S := S2000x32) hz, View.ld_unit_zero (S := S32x64) hz]
  obtain ⟨e0, e1, e2, e3, e4⟩ := idx_facts t
  funext j
  obtain ⟨p, q, rfl⟩ : ∃ (p : Fin 2000) (q : Fin 64), j = ix2 p q := ⟨j 0, j 1, eq_ix2 j⟩
  refine (pay_apply (iblk0 V c 0 t) (iblk0 V c 1 t) p q).trans ?_
  show _ = prod (lft V c) (rgt V c) (((cfg0.win 2).blk t).view.emb (ix2 p q))
  unfold prod
  refine Finset.sum_congr rfl fun k _ => ?_
  show lft V c (((cfg0.win 0).blk t).view.emb (ix2 p k)) * rgt V c (((cfg0.win 1).blk t).view.emb (ix2 k q)) = _
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 32 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 32 + 1 * k.val = k.val; omega
    | ⟨1, _⟩ => show win0_1.index t (1 : Fin 2) * 64 + 1 * q.val = win0_2.index t (1 : Fin 2) * 64 + 1 * q.val; omega
  rw [h0, h1]
  rfl

/-- An index of the array is in point t's block iff each coordinate is in the block's range on its axis. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v29).slice (win0_2.rect t)).set ↔ _
  rw [View.set_slice_whole, Rect.mem_set_unit]
  exact Iff.rfl

/-- The 25 blocks cover the array: row r is in the block of point r / 2000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, q0, q1⟩ := idx_onto ⟨(i 0).val / 2000, by omega⟩
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; simp only at q0; omega
  | ⟨1, _⟩ => show win0_2.index t (1 : Fin 2) * 64 ≤ (i 1).val ∧ (i 1).val < win0_2.index t (1 : Fin 2) * 64 + 64; omega

/-- After its 25 points the first call's result array holds the product of the arrays it found, whole. -/
theorem result (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Proj0

end
-- ==== Proof.Act1.lean ====
/-
  The first bias-and-ReLU call, as its 25 grid points leave it.

  Point t adds the 1 × 64 bias row to each of rows 2000·t … 2000·t + 1999 of the propagated features and clamps below
  at zero: the block's (p, q) entry is max (a(2000·t + p, q) + b(0, q), 0).  So point t writes back rows
  2000·t … 2000·t + 1999 of the 50000 × 64 array whose (r, q) entry is max (a(r, q) + b(0, q), 0); the 25 blocks tile
  the rows, and the array ends holding that function whole.
-/
import proofs.«118265_j22986664968329_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Act1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The propagated features the call finds, as a 50000 × 64 array of extended reals. -/
abbrev feat (c : Dev nD) : S50000x64.Idx → EReal := V c main_v42
/-- The bias row the call finds, as a 1 × 64 array of extended reals. -/
abbrev brow (c : Dev nD) : S1x64.Idx → EReal := V c main_v43

/-- Rows plus a bias row, clamped below at zero: entry (r, q) is max (a(r, q) + b(0, q), 0). -/
def biasRelu (a : S50000x64.Idx → EReal) (b : S1x64.Idx → EReal) : S50000x64.Idx → EReal :=
  fun i => max (a i + b (ix2 (0 : Fin 1) (i 1))) (Scalar.ofBits (F := Ideal) .f32 0x00000000#32)

/-- The body's stored value at entry (p, q) of the block. -/
theorem pay_apply (x0 : Vec Ideal S2000x64 .f32) (x1 : Vec Ideal S1x64 .f32) (p : Fin 2000) (q : Fin 64) :
    k1_pay1 (F := Ideal) x0 x1 (ix2 p q) = max (x0 (ix2 p q) + x1 (ix2 (0 : Fin 1) q)) (Scalar.ofBits (F := Ideal) .f32 0x00000000#32) := by
  unfold k1_pay1
  show max (shapeCast S2000x64 x0 shapeCasts_S2000x64_S2000x64 (ix2 p q)
      + broadcastTo S2000x64 (shapeCast S1x64 x1 shapeCasts_S1x64_S1x64) broadcasts_S1x64_S2000x64 (ix2 p q)) _ = _
  rw [shapeCast_self, shapeCast_self, broadcastTo_1b_ab_apply]
  rfl

/-- The printed index maps over the grid: the features' block and the result's block move together along the rows,
    the bias row never moves, and no block moves along the columns. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every one of the 25 row blocks is some point's. -/
theorem idx_onto : ∀ r : Fin 25, ∃ t : Fin cfg1.N, win1_2.index t (0 : Fin 2) = r.val ∧ win1_2.index t (1 : Fin 2) = 0 :=
  (by decide +kernel : ∀ r : Fin 25, ∃ t : Fin grid1.N, win1_2.index t (0 : Fin 2) = r.val ∧ win1_2.index t (1 : Fin 2) = 0)

/-- What point t writes back is block t of the biased, clamped array. -/
theorem flushed_eq (c : Dev nD) (t : Fin cfg1.N) :
    (dat1 V c).flushed 2 t = ((cfg1.win 2).blk t).view.read (Elt Ideal) (biasRelu (feat V c) (brow V c)) := by
  show (cfg1.win 2).cut (grid1.coords t) ((dat1 V c).after 2 t) = _
  rw [after1_2]
  unfold out1_2
  rw [View.canon_unit_zero hz]
  simp only [View.ld_unit_zero (S := S2000x64) hz, View.ld_unit_zero (S := S1x64) hz]
  obtain ⟨e0, e1, e2, e3, e4⟩ := idx_facts t
  funext j
  obtain ⟨p, q, rfl⟩ : ∃ (p : Fin 2000) (q : Fin 64), j = ix2 p q := ⟨j 0, j 1, eq_ix2 j⟩
  refine (pay_apply (iblk1 V c 0 t) (iblk1 V c 1 t) p q).trans ?_
  show max (feat V c (((cfg1.win 0).blk t).view.emb (ix2 p q)) + brow V c (((cfg1.win 1).blk t).view.emb (ix2 (0 : Fin 1) q))) _
    = biasRelu (feat V c) (brow V c) (((cfg1.win 2).blk t).view.emb (ix2 p q))
  unfold biasRelu
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]
  rfl

/-- An index of the array is in point t's block iff each coordinate is in the block's range on its axis. -/
theorem mem_blk (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v44).slice (win1_2.rect t)).set ↔ _
  rw [View.set_slice_whole, Rect.mem_set_unit]
  exact Iff.rfl

/-- The 25 blocks cover the array: row r is in the block of point r / 2000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, q0, q1⟩ := idx_onto ⟨(i 0).val / 2000, by omega⟩
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; simp only at q0; omega
  | ⟨1, _⟩ => show win1_2.index t (1 : Fin 2) * 64 ≤ (i 1).val ∧ (i 1).val < win1_2.index t (1 : Fin 2) * 64 + 64; omega

/-- After its 25 points the call's result array holds the biased, clamped array, whole. -/
theorem result (c : Dev nD) : (dat1 V c).arrAt 2 cfg1.N = biasRelu (V c main_v42) (V c main_v43) :=
  (dat1 V c).arrAt_eq_of_cover 2 (biasRelu (V c main_v42) (V c main_v43)) (fun t _ => flushed_eq V c t) cover

end Cert.KernelIdeal.Act1

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Layer1.lean ====
/-
  The first graph-convolution layer of the kernel's program, read in the reference's words.

  At every boundary of the run the buffers hold a known function of the launch memory.  Here: after the first call the
  projection x · W1 — the host's dot_general of the reference, entry by entry the same sum over k; after the stretch that
  follows, the propagated features — gather the projection's rows at the edge sources, scale each by its edge's
  normalisation, scatter-add at the edge targets: the reference's operations on the same lists and the same
  normalisation; and after the bias-and-ReLU call the first hidden layer, max (propagated + b1, 0) entry by entry —
  the bias row the program reshapes to 1 × 64 is the reference's broadcast of b1 along the columns.
-/
import proofs.«118265_j22986664968329_2_alg».proof.Proof.Gen.ReferenceIdeal.Read
import proofs.«118265_j22986664968329_2_alg».proof.Proof.Graph
import proofs.«118265_j22986664968329_2_alg».proof.Proof.Kept
import proofs.«118265_j22986664968329_2_alg».proof.Proof.Proj0
import proofs.«118265_j22986664968329_2_alg».proof.Proof.Act1
import proofs.«118265_j22986664968329_2_alg».proof.Proof.LibUnitAxes
import Idealize.ShloMosaic.Lib.ValueLayout

set_option maxRecDepth 16384

noncomputable section

namespace Cert.KernelIdeal.Layer1

open Cert.KernelIdeal Cert.KernelIdeal.Gen Idealize.ShloMosaic Idealize.ShloMosaic.TcCoe Idealize.ShloMosaic.StableHlo
open Idealize.ShloMosaic.ValueIdx
open Cert.ReferenceIdeal.Read

variable (m : (ℓ : Loc nD τ sig) → Buf (Elt Ideal) ℓ) (ρ : Dev nD → PrngReg)

/-- The row-tiled product is the host's dot_general: both are, at (r, q), the sum over k of left(r, k) · right(k, q). -/
theorem prod_eq (x : S50000x32.Idx → EReal) (w : S32x64.Idx → EReal) :
    Proj0.prod x w = val_main_v4 (F := Ideal) x w := by
  funext i
  rw [val_main_v4_apply]
  unfold Proj0.prod
  refine Finset.sum_congr rfl fun k _ => ?_
  have el : (ix2 (i 0) k : S50000x32.Idx) = lidx_main_v4 i k :=
    funext fun a => Fin.ext (by match a with | ⟨0, _⟩ => rfl | ⟨1, _⟩ => rfl)
  have er : (ix2 k (i 1) : S32x64.Idx) = ridx_main_v4 i k :=
    funext fun a => Fin.ext (by match a with | ⟨0, _⟩ => rfl | ⟨1, _⟩ => rfl)
  rw [el, er]

/-- After the first call: the projection x · W1. -/
theorem projected (c : Dev nD) : W2 m ρ c (Proc.devRef .tc main_v29)
    = val_main_v4 (F := Ideal) (m ((c : Thread nD τ).loc main_arg0)) (m ((c : Thread nD τ).loc main_arg2)) := by
  refine (W2_arr m ρ c 2).trans ?_
  refine (Proj0.result (V1 m ρ) c).trans ?_
  show Proj0.prod (W1 m ρ c (Proc.devRef .tc main_arg0)) (W1 m ρ c (Proc.devRef .tc main_arg2)) = _
  rw [Kept.arg0_at1, Kept.arg2_at1]
  exact prod_eq _ _

/-- After the stretch that follows: the projection's rows gathered at the sources, scaled by the normalisation,
    scatter-added at the targets. -/
theorem propagated (c : Dev nD) : W3 m ρ c (Proc.devRef .tc main_v42)
    = val_main_v42 (F := Ideal) (m ((c : Thread nD τ).loc main_arg0)) (m ((c : Thread nD τ).loc main_arg1)) (m ((c : Thread nD τ).loc main_arg2)) := by
  show StableHlo.after hostOps1 (W2 m ρ c) (Proc.devRef .tc main_v42) = _
  after_results_simp
  rw [projected, Kept.v5_at2, Kept.v6_at2, Kept.v28_at2, Graph.src, Graph.dst, Graph.norm]
  rfl

/-- The bias row the program hands the call: b1 recast as a 1 × 64 array. -/
theorem bias_row (c : Dev nD) : W3 m ρ c (Proc.devRef .tc main_v43)
    = shapeCast S1x64 (m ((c : Thread nD τ).loc main_arg3)) shapeCasts_S64_S1x64 := by
  show StableHlo.after hostOps1 (W2 m ρ c) (Proc.devRef .tc main_v43) = _
  after_results
  rw [Kept.arg3_at2]
  rfl

/-- Rows plus the recast bias, clamped at zero, is the reference's relu (a + broadcast of b along the columns). -/
theorem biasRelu_eq (a : S50000x64.Idx → EReal) (b : S64.Idx → EReal) :
    Act1.biasRelu a (shapeCast S1x64 b shapeCasts_S64_S1x64)
      = maximumf (F := Ideal) (φ := .f32) (addf (F := Ideal) (φ := .f32) a (val_main_v44 (F := Ideal) b)) (val_main_call0_v0 (F := Ideal)) := by
  funext i
  obtain ⟨r, q, rfl⟩ : ∃ (r : Fin 50000) (q : Fin 64), i = ix2 r q := ⟨i 0, i 1, eq_ix2 i⟩
  show max (a (ix2 r q) + shapeCast S1x64 b shapeCasts_S64_S1x64 (ix2 (0 : Fin 1) q)) _
    = max (a (ix2 r q) + val_main_v44 (F := Ideal) b (ix2 r q)) (val_main_call0_v0 (F := Ideal) (ix2 r q))
  rw [shapeCast_a_1a_apply, val_main_v44_apply, val_main_v43_apply, val_main_call0_v0_apply, val_main_call0_cst_apply]
  have e : (ix1 q : S64.Idx) = idx_main_v43 (idx_main_v44 (ix2 r q)) :=
    funext fun a => Fin.ext (by match a with | ⟨0, _⟩ => rfl)
  rw [e]

/-- After the bias-and-ReLU call: the first hidden layer. -/
theorem hidden (c : Dev nD) : W4 m ρ c (Proc.devRef .tc main_v44)
    = val_main_v46 (F := Ideal) (m ((c : Thread nD τ).loc main_arg0)) (m ((c : Thread nD τ).loc main_arg1)) (m ((c : Thread nD τ).loc main_arg2)) (m ((c : Thread nD τ).loc main_arg3)) := by
  refine (W4_arr m ρ c 2).trans ?_
  refine (Act1.result (V3 m ρ) c).trans ?_
  show Act1.biasRelu (W3 m ρ c (Proc.devRef .tc main_v42)) (W3 m ρ c (Proc.devRef .tc main_v43)) = _
  rw [propagated, bias_row]
  exact biasRelu_eq _ _

end Cert.KernelIdeal.Layer1

end
-- ==== Proof.Proj2.lean ====
/-
  The second projection, h1 · W2, as the 25 grid points of its call leave it.

  Point t multiplies rows 2000·t … 2000·t + 1999 of the first hidden layer h1 by the whole of W2 into a zero accumulator.  Rounding
  the two operands to bf16 on the way in changes nothing over the extended reals, so the block's (p, q) entry is the sum
  over k < 64 of the first hidden layer h1(2000·t + p, k) · W2(k, q): point t writes back rows 2000·t … 2000·t + 1999 of the 50000 × 64
  array whose (r, q) entry is that sum at row r.  Every row lies in exactly one of the 25 blocks (row r in block r / 2000),
  so after the last point the array holds the product whole.
-/
import proofs.«118265_j22986664968329_2_alg».proof.Proof.Gen.KernelIdeal.Frame
import proofs.«118265_j22986664968329_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Proj2

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The left operand the call finds, as a 50000 × 64 array of extended reals. -/
abbrev lft (c : Dev nD) : S50000x64.Idx → EReal := V c main_v44
/-- The right operand the call finds, as a 64 × 64 array of extended reals. -/
abbrev rgt (c : Dev nD) : S64x64.Idx → EReal := V c main_arg4

/-- The product of a 50000 × 64 array by a 64 × 64 array: entry (r, q) is the sum over k of left(r, k) · right(k, q). -/
def prod (x : S50000x64.Idx → EReal) (w : S64x64.Idx → EReal) : S50000x64.Idx → EReal :=
  fun i => ∑ k : Fin 64, x (ix2 (i 0) k) * w (ix2 k (i 1))

/-- In the left operand of the block product, the row coordinate of the index read for output (p, q) is p. -/
theorem lhs_row (j : S2000x64.Idx) (k : dot_S2000x64_S64x64_S2000x64_1_0_0_1_n_n.contr.Idx) :
    (dot_S2000x64_S64x64_S2000x64_1_0_0_1_n_n.lhsIdx j k 0).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

/-- In the right operand, the column coordinate of the index read for output (p, q) is q. -/
theorem rhs_col (j : S2000x64.Idx) (k : dot_S2000x64_S64x64_S2000x64_1_0_0_1_n_n.contr.Idx) :
    (dot_S2000x64_S64x64_S2000x64_1_0_0_1_n_n.rhsIdx j k 1).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The body's stored value at entry (p, q) of the block: the plain sum over k of the loaded blocks' entries (the
    rounding of the operands and the cast to the same shape are the identity, the accumulator starts at zero). -/
theorem pay_apply (x0 : Vec Ideal S2000x64 .f32) (x1 : Vec Ideal S64x64 .f32) (p : Fin 2000) (q : Fin 64) :
    k2_pay1 (F := Ideal) x0 x1 (ix2 p q) = ∑ k : Fin 64, x0 (ix2 p k) * x1 (ix2 k q) := by
  unfold k2_pay1
  show matmul (F := Ideal) dot_S2000x64_S64x64_S2000x64_1_0_0_1_n_n none (truncf (F := Ideal) .bf16 (shapeCast S2000x64 x0 shapeCasts_S2000x64_S2000x64) bitsLt_bf16_f32)
      (truncf (F := Ideal) .bf16 x1 bitsLt_bf16_f32) (constant (F := Ideal) S2000x64 .f32 0x00000000#32) (ix2 p q) = _
  rw [shapeCast_self]
  exact Cert.LibPlainDot.matmul_zero_apply dot_S2000x64_S64x64_S2000x64_1_0_0_1_n_n rfl rfl rfl rfl lhs_row rhs_col none
    (truncf .bf16 x0 bitsLt_bf16_f32) (truncf .bf16 x1 bitsLt_bf16_f32) p q

/-- The printed index maps over the grid: the left operand's block and the result's block move together along the rows (block t at
    point t), W2's block never moves, and no block moves along the columns. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the 25 row blocks is some point's. -/
theorem idx_onto : ∀ r : Fin 25, ∃ t : Fin cfg2.N, win2_2.index t (0 : Fin 2) = r.val ∧ win2_2.index t (1 : Fin 2) = 0 :=
  (by decide +kernel : ∀ r : Fin 25, ∃ t : Fin grid2.N, win2_2.index t (0 : Fin 2) = r.val ∧ win2_2.index t (1 : Fin 2) = 0)

/-- What point t writes back is block t of the product of the arrays the region finds. -/
theorem flushed_eq (c : Dev nD) (t : Fin cfg2.N) :
    (dat2 V c).flushed 2 t = ((cfg2.win 2).blk t).view.read (Elt Ideal) (prod (lft V c) (rgt V c)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x64) hz]
  obtain ⟨e0, e1, e2, e3, e4⟩ := idx_facts t
  funext j
  obtain ⟨p, q, rfl⟩ : ∃ (p : Fin 2000) (q : Fin 64), j = ix2 p q := ⟨j 0, j 1, eq_ix2 j⟩
  refine (pay_apply (iblk2 V c 0 t) (iblk2 V c 1 t) p q).trans ?_
  show _ = prod (lft V c) (rgt V c) (((cfg2.win 2).blk t).view.emb (ix2 p q))
  unfold prod
  refine Finset.sum_congr rfl fun k _ => ?_
  show lft V c (((cfg2.win 0).blk t).view.emb (ix2 p k)) * rgt V c (((cfg2.win 1).blk t).view.emb (ix2 k q)) = _
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 64 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [h0, h1]
  rfl

/-- An index of the array is in point t's block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v45).slice (win2_2.rect t)).set ↔ _
  rw [View.set_slice_whole, Rect.mem_set_unit]
  exact Iff.rfl

/-- The 25 blocks cover the array: row r is in the block of point r / 2000. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, q0, q1⟩ := idx_onto ⟨(i 0).val / 2000, by omega⟩
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; simp only at q0; omega
  | ⟨1, _⟩ => show win2_2.index t (1 : Fin 2) * 64 ≤ (i 1).val ∧ (i 1).val < win2_2.index t (1 : Fin 2) * 64 + 64; omega

/-- After its 25 points the call's result array holds the product of the arrays it found, whole. -/
theorem result (c : Dev nD) : (dat2 V c).arrAt 2 cfg2.N = prod (V c main_v44) (V c main_arg4) :=
  (dat2 V c).arrAt_eq_of_cover 2 (prod (V c main_v44) (V c main_arg4)) (fun t _ => flushed_eq V c t) cover

end Cert.KernelIdeal.Proj2

end
-- ==== Proof.Act3.lean ====
/-
  The second bias-and-ReLU call, as its 25 grid points leave it.

  The same body as the first, on the second layer's propagated features and bias row: point t writes back rows
  2000·t … 2000·t + 1999 of the 50000 × 64 array whose (r, q) entry is max (a(r, q) + b(0, q), 0); the 25 blocks tile the
  rows, and the array ends holding that function whole.
-/
import proofs.«118265_j22986664968329_2_alg».proof.Proof.Gen.KernelIdeal.Frame
import proofs.«118265_j22986664968329_2_alg».proof.Proof.Act1
import Idealize.ShloMosaic.Lib.Pipeline.Value
import Idealize.ShloMosaic.Lib.ValueIdx
import Idealize.ShloMosaic.Lib.ValueLayout

set_option maxRecDepth 16384

noncomputable section

namespace Cert.KernelIdeal.Act3

open Cert.KernelIdeal Cert.KernelIdeal.Gen Idealize.ShloMosaic Idealize.ShloMosaic.TcCoe Idealize.ShloMosaic.ValueIdx
open Idealize.ShloMosaic.Pipeline (Dat Cfg Window)
open Cert.KernelIdeal.Act1 (biasRelu)

variable (V : (c : Dev nD) → (b : Ref sig .tc) → Buf (Elt Ideal) ((c : Thread nD τ).loc b))

theorem hz : (![0, 0] : Fin 2 → Nat) = fun _ => 0 := funext fun a => by fin_cases a <;> rfl

/-- The propagated features the call finds, as a 50000 × 64 array of extended reals. -/
abbrev feat (c : Dev nD) : S50000x64.Idx → EReal := V c main_v58
/-- The bias row the call finds, as a 1 × 64 array of extended reals. -/
abbrev brow (c : Dev nD) : S1x64.Idx → EReal := V c main_v59

/-- The body's stored value at entry (p, q) of the block. -/
theorem pay_apply (x0 : Vec Ideal S2000x64 .f32) (x1 : Vec Ideal S1x64 .f32) (p : Fin 2000) (q : Fin 64) :
    k3_pay1 (F := Ideal) x0 x1 (ix2 p q) = max (x0 (ix2 p q) + x1 (ix2 (0 : Fin 1) q)) (Scalar.ofBits (F := Ideal) .f32 0x00000000#32) := by
  unfold k3_pay1
  show max (shapeCast S2000x64 x0 shapeCasts_S2000x64_S2000x64 (ix2 p q)
      + broadcastTo S2000x64 (shapeCast S1x64 x1 shapeCasts_S1x64_S1x64) broadcasts_S1x64_S2000x64 (ix2 p q)) _ = _
  rw [shapeCast_self, shapeCast_self, broadcastTo_1b_ab_apply]
  rfl

/-- The printed index maps over the grid: the features' block and the result's block move together along the rows,
    the bias row never moves, and no block moves along the columns. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Every one of the 25 row blocks is some point's. -/
theorem idx_onto : ∀ r : Fin 25, ∃ t : Fin cfg3.N, win3_2.index t (0 : Fin 2) = r.val ∧ win3_2.index t (1 : Fin 2) = 0 :=
  (by decide +kernel : ∀ r : Fin 25, ∃ t : Fin grid3.N, win3_2.index t (0 : Fin 2) = r.val ∧ win3_2.index t (1 : Fin 2) = 0)

/-- What point t writes back is block t of the biased, clamped array. -/
theorem flushed_eq (c : Dev nD) (t : Fin cfg3.N) :
    (dat3 V c).flushed 2 t = ((cfg3.win 2).blk t).view.read (Elt Ideal) (biasRelu (feat V c) (brow V c)) := by
  show (cfg3.win 2).cut (grid3.coords t) ((dat3 V c).after 2 t) = _
  rw [after3_2]
  unfold out3_2
  rw [View.canon_unit_zero hz]
  simp only [View.ld_unit_zero (S := S2000x64) hz, View.ld_unit_zero (S := S1x64) hz]
  obtain ⟨e0, e1, e2, e3, e4⟩ := idx_facts t
  funext j
  obtain ⟨p, q, rfl⟩ : ∃ (p : Fin 2000) (q : Fin 64), j = ix2 p q := ⟨j 0, j 1, eq_ix2 j⟩
  refine (pay_apply (iblk3 V c 0 t) (iblk3 V c 1 t) p q).trans ?_
  show max (feat V c (((cfg3.win 0).blk t).view.emb (ix2 p q)) + brow V c (((cfg3.win 1).blk t).view.emb (ix2 (0 : Fin 1) q))) _
    = biasRelu (feat V c) (brow V c) (((cfg3.win 2).blk t).view.emb (ix2 p q))
  unfold Cert.KernelIdeal.Act1.biasRelu
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q) = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [h0, h1]
  rfl

/-- An index of the array is in point t's block iff each coordinate is in the block's range on its axis. -/
theorem mem_blk (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v60).slice (win3_2.rect t)).set ↔ _
  rw [View.set_slice_whole, Rect.mem_set_unit]
  exact Iff.rfl

/-- The 25 blocks cover the array: row r is in the block of point r / 2000. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, q0, q1⟩ := idx_onto ⟨(i 0).val / 2000, by omega⟩
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; simp only at q0; omega
  | ⟨1, _⟩ => show win3_2.index t (1 : Fin 2) * 64 ≤ (i 1).val ∧ (i 1).val < win3_2.index t (1 : Fin 2) * 64 + 64; omega

/-- After its 25 points the call's result array holds the biased, clamped array, whole. -/
theorem result (c : Dev nD) : (dat3 V c).arrAt 2 cfg3.N = biasRelu (V c main_v58) (V c main_v59) :=
  (dat3 V c).arrAt_eq_of_cover 2 (biasRelu (V c main_v58) (V c main_v59)) (fun t _ => flushed_eq V c t) cover

end Cert.KernelIdeal.Act3

end
-- ==== Proof.Layer2.lean ====
/-
  The second graph-convolution layer of the kernel's program, read in the reference's words.

  After the second projection call the array holds h1 · W2 — the reference's second dot_general, entry by entry the same
  sum over k.  The stretch that follows gathers its rows at the edge sources, scales by the normalisation and
  scatter-adds at the targets; the reference recomputes the edge lists and the normalisation for this layer, by the
  same operations on the same edge array, so they are the arrays the program computed once.  The bias-and-ReLU call
  then leaves the second hidden layer, max (propagated + b2, 0) entry by entry.
-/
import proofs.«118265_j22986664968329_2_alg».proof.Proof.Gen.ReferenceIdeal.Read
import proofs.«118265_j22986664968329_2_alg».proof.Proof.Graph
import proofs.«118265_j22986664968329_2_alg».proof.Proof.Kept
import proofs.«118265_j22986664968329_2_alg».proof.Proof.Layer1
import proofs.«118265_j22986664968329_2_alg».proof.Proof.Proj2
import proofs.«118265_j22986664968329_2_alg».proof.Proof.Act3
import Idealize.ShloMosaic.Lib.ValueLayout

set_option maxRecDepth 16384

noncomputable section

namespace Cert.KernelIdeal.Layer2

open Cert.KernelIdeal Cert.KernelIdeal.Gen Idealize.ShloMosaic Idealize.ShloMosaic.TcCoe Idealize.ShloMosaic.StableHlo
open Idealize.ShloMosaic.ValueIdx
open Cert.ReferenceIdeal.Read

variable (m : (ℓ : Loc nD τ sig) → Buf (Elt Ideal) ℓ) (ρ : Dev nD → PrngReg)

/-- After the second projection call: h1 · W2. -/
theorem projected (c : Dev nD) : W5 m ρ c (Proc.devRef .tc main_v45)
    = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  refine (Proj2.result (V4 m ρ) c).trans ?_
  show Proj2.prod (W4 m ρ c (Proc.devRef .tc main_v44)) (W4 m ρ c (Proc.devRef .tc main_arg4)) = _
  rw [Layer1.hidden, Kept.arg4_at4]
  funext i
  rw [val_main_v47_apply]
  unfold Proj2.prod
  refine Finset.sum_congr rfl fun k _ => ?_
  have el : (ix2 (i 0) k : S50000x64.Idx) = lidx_main_v47 i k :=
    funext fun a => Fin.ext (by match a with | ⟨0, _⟩ => rfl | ⟨1, _⟩ => rfl)
  have er : (ix2 k (i 1) : S64x64.Idx) = ridx_main_v47 i k :=
    funext fun a => Fin.ext (by match a with | ⟨0, _⟩ => rfl | ⟨1, _⟩ => rfl)
  rw [el, er]

/-- After the stretch that follows: the projection's rows gathered at the sources, scaled, scatter-added at the targets. -/
theorem propagated (c : Dev nD) : W6 m ρ c (Proc.devRef .tc main_v58)
    = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v58) = _
  after_results_simp
  rw [projected, Kept.v5_at5, Kept.v6_at5, Kept.v28_at5, Graph.src, Graph.dst, Graph.norm]
  rfl

/-- The bias row the program hands the call: b2 recast as a 1 × 64 array. -/
theorem bias_row (c : Dev nD) : W6 m ρ c (Proc.devRef .tc main_v59)
    = shapeCast S1x64 (m ((c : Thread nD τ).loc main_arg5)) shapeCasts_S64_S1x64 := by
  show StableHlo.after hostOps3 (W5 m ρ c) (Proc.devRef .tc main_v59) = _
  after_results
  rw [Kept.arg5_at5]
  rfl

/-- Rows plus the recast bias, clamped at zero, is the reference's relu (a + broadcast of b along the columns). -/
theorem biasRelu_eq (a : S50000x64.Idx → EReal) (b : S64.Idx → EReal) :
    Act1.biasRelu a (shapeCast S1x64 b shapeCasts_S64_S1x64)
      = maximumf (F := Ideal) (φ := .f32) (addf (F := Ideal) (φ := .f32) a (val_main_v87 (F := Ideal) b)) (val_main_call1_v0 (F := Ideal)) := by
  funext i
  obtain ⟨r, q, rfl⟩ : ∃ (r : Fin 50000) (q : Fin 64), i = ix2 r q := ⟨i 0, i 1, eq_ix2 i⟩
  show max (a (ix2 r q) + shapeCast S1x64 b shapeCasts_S64_S1x64 (ix2 (0 : Fin 1) q)) _
    = max (a (ix2 r q) + val_main_v87 (F := Ideal) b (ix2 r q)) (val_main_call1_v0 (F := Ideal) (ix2 r q))
  rw [shapeCast_a_1a_apply, val_main_v87_apply, val_main_v86_apply, val_main_call1_v0_apply, val_main_call1_cst_apply]
  have e : (ix1 q : S64.Idx) = idx_main_v86 (idx_main_v87 (ix2 r q)) :=
    funext fun a => Fin.ext (by match a with | ⟨0, _⟩ => rfl)
  rw [e]

/-- After the bias-and-ReLU call: the second hidden layer. -/
theorem hidden (c : Dev nD) : W7 m ρ c (Proc.devRef .tc main_v60)
    = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  refine (Act3.result (V6 m ρ) c).trans ?_
  show Act1.biasRelu (W6 m ρ c (Proc.devRef .tc main_v58)) (W6 m ρ c (Proc.devRef .tc main_v59)) = _
  rw [propagated, bias_row]
  exact biasRelu_eq _ _

end Cert.KernelIdeal.Layer2

end
-- ==== Proof.Proj4.lean ====
/-
  The mean head's projection, h2 · W_mu, as the 25 grid points of its call leave it.

  Point t multiplies rows 2000·t … 2000·t + 1999 of the second hidden layer h2 by the whole of W_mu into a zero accumulator.  Rounding
  the two operands to bf16 on the way in changes nothing over the extended reals, so the block's (p, q) entry is the sum
  over k < 64 of the second hidden layer h2(2000·t + p, k) · W_mu(k, q): point t writes back rows 2000·t … 2000·t + 1999 of the 50000 × 32
  array whose (r, q) entry is that sum at row r.  Every row lies in exactly one of the 25 blocks (row r in block r / 2000),
  so after the last point the array holds the product whole.
-/
import proofs.«118265_j22986664968329_2_alg».proof.Proof.Gen.KernelIdeal.Frame
import proofs.«118265_j22986664968329_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Proj4

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The left operand the call finds, as a 50000 × 64 array of extended reals. -/
abbrev lft (c : Dev nD) : S50000x64.Idx → EReal := V c main_v60
/-- The right operand the call finds, as a 64 × 32 array of extended reals. -/
abbrev rgt (c : Dev nD) : S64x32.Idx → EReal := V c main_arg6

/-- The product of a 50000 × 64 array by a 64 × 32 array: entry (r, q) is the sum over k of left(r, k) · right(k, q). -/
def prod (x : S50000x64.Idx → EReal) (w : S64x32.Idx → EReal) : S50000x32.Idx → EReal :=
  fun i => ∑ k : Fin 64, x (ix2 (i 0) k) * w (ix2 k (i 1))

/-- In the left operand of the block product, the row coordinate of the index read for output (p, q) is p. -/
theorem lhs_row (j : S2000x32.Idx) (k : dot_S2000x64_S64x32_S2000x32_1_0_0_1_n_n.contr.Idx) :
    (dot_S2000x64_S64x32_S2000x32_1_0_0_1_n_n.lhsIdx j k 0).val = (j 0).val := by
  unfold DotDims.lhsIdx
  rw [dif_neg (show ¬(0 : Fin S2000x64.rank) ∈ dot_S2000x64_S64x32_S2000x32_1_0_0_1_n_n.lhsBatch by decide),
    dif_pos (show (0 : Fin S2000x64.rank) ∈ dot_S2000x64_S64x32_S2000x32_1_0_0_1_n_n.lhsNonContracting by decide)]
  rfl

/-- In the right operand, the column coordinate of the index read for output (p, q) is q. -/
theorem rhs_col (j : S2000x32.Idx) (k : dot_S2000x64_S64x32_S2000x32_1_0_0_1_n_n.contr.Idx) :
    (dot_S2000x64_S64x32_S2000x32_1_0_0_1_n_n.rhsIdx j k 1).val = (j 1).val := by
  unfold DotDims.rhsIdx
  rw [dif_neg (show ¬(1 : Fin S64x32.rank) ∈ dot_S2000x64_S64x32_S2000x32_1_0_0_1_n_n.rhsBatch by decide),
    dif_pos (show (1 : Fin S64x32.rank) ∈ dot_S2000x64_S64x32_S2000x32_1_0_0_1_n_n.rhsNonContracting by decide)]
  rfl

/-- The body's stored value at entry (p, q) of the block: the plain sum over k of the loaded blocks' entries (the
    rounding of the operands and the cast to the same shape are the identity, the accumulator starts at zero). -/
theorem pay_apply (x0 : Vec Ideal S2000x64 .f32) (x1 : Vec Ideal S64x32 .f32) (p : Fin 2000) (q : Fin 32) :
    k4_pay1 (F := Ideal) x0 x1 (ix2 p q) = ∑ k : Fin 64, x0 (ix2 p k) * x1 (ix2 k q) := by
  unfold k4_pay1
  show matmul (F := Ideal) dot_S2000x64_S64x32_S2000x32_1_0_0_1_n_n none (truncf (F := Ideal) .bf16 (shapeCast S2000x64 x0 shapeCasts_S2000x64_S2000x64) bitsLt_bf16_f32)
      (truncf (F := Ideal) .bf16 x1 bitsLt_bf16_f32) (constant (F := Ideal) S2000x32 .f32 0x00000000#32) (ix2 p q) = _
  rw [shapeCast_self]
  exact Cert.LibPlainDot.matmul_zero_apply dot_S2000x64_S64x32_S2000x32_1_0_0_1_n_n rfl rfl rfl rfl lhs_row rhs_col none
    (truncf .bf16 x0 bitsLt_bf16_f32) (truncf .bf16 x1 bitsLt_bf16_f32) p q

/-- The printed index maps over the grid: the left operand's block and the result's block move together along the rows (block t at
    point t), W_mu's block never moves, and no block moves along the columns. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the 25 row blocks is some point's. -/
theorem idx_onto : ∀ r : Fin 25, ∃ t : Fin cfg4.N, win4_2.index t (0 : Fin 2) = r.val ∧ win4_2.index t (1 : Fin 2) = 0 :=
  (by decide +kernel : ∀ r : Fin 25, ∃ t : Fin grid4.N, win4_2.index t (0 : Fin 2) = r.val ∧ win4_2.index t (1 : Fin 2) = 0)

/-- What point t writes back is block t of the product of the arrays the region finds. -/
theorem flushed_eq (c : Dev nD) (t : Fin cfg4.N) :
    (dat4 V c).flushed 2 t = ((cfg4.win 2).blk t).view.read (Elt Ideal) (prod (lft V c) (rgt V c)) := by
  show (cfg4.win 2).cut (grid4.coords t) ((dat4 V c).after 2 t) = _
  rw [after4_2]
  unfold out4_2
  rw [View.canon_unit_zero hz]
  simp only [View.ld_unit_zero (S := S2000x64) hz, View.ld_unit_zero (S := S64x32) hz]
  obtain ⟨e0, e1, e2, e3, e4⟩ := idx_facts t
  funext j
  obtain ⟨p, q, rfl⟩ : ∃ (p : Fin 2000) (q : Fin 32), j = ix2 p q := ⟨j 0, j 1, eq_ix2 j⟩
  refine (pay_apply (iblk4 V c 0 t) (iblk4 V c 1 t) p q).trans ?_
  show _ = prod (lft V c) (rgt V c) (((cfg4.win 2).blk t).view.emb (ix2 p q))
  unfold prod
  refine Finset.sum_congr rfl fun k _ => ?_
  show lft V c (((cfg4.win 0).blk t).view.emb (ix2 p k)) * rgt V c (((cfg4.win 1).blk t).view.emb (ix2 k q)) = _
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 64 + 1 * k.val = k.val; omega
  have h1 : ((cfg4.win 1).blk t).view.emb (ix2 k q) = ix2 k ((((cfg4.win 2).blk t).view.emb (ix2 p q)) 1) := by
    funext a; apply Fin.ext
    match a with
    | ⟨0, _⟩ => show win4_1.index t (0 : Fin 2) * 64 + 1 * k.val = k.val; omega
    | ⟨1, _⟩ => show win4_1.index t (1 : Fin 2) * 32 + 1 * q.val = win4_2.index t (1 : Fin 2) * 32 + 1 * q.val; omega
  rw [h0, h1]
  rfl

/-- An index of the array is in point t's block iff each coordinate is in the block's range on its axis. -/
theorem mem_blk (t : Fin cfg4.N) (i : S50000x32.Idx) :
    i ∈ ((cfg4.win 2).blk t).view.set ↔ ∀ a : Fin 2, win4_2.index t a * S2000x32.size a ≤ (i a).val ∧ (i a).val < win4_2.index t a * S2000x32.size a + S2000x32.size a := by
  show i ∈ ((View.whole main_v61).slice (win4_2.rect t)).set ↔ _
  rw [View.set_slice_whole, Rect.mem_set_unit]
  exact Iff.rfl

/-- The 25 blocks cover the array: row r is in the block of point r / 2000. -/
theorem cover (i : S50000x32.Idx) : ∃ t : Fin cfg4.N, (cfg4.win 2).flush t = true ∧ i ∈ ((cfg4.win 2).blk t).view.set := by
  have hi0 : (i 0).val < 50000 := (i 0).isLt
  have hi1 : (i 1).val < 32 := (i 1).isLt
  obtain ⟨t, q0, q1⟩ := idx_onto ⟨(i 0).val / 2000, by omega⟩
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; simp only at q0; omega
  | ⟨1, _⟩ => show win4_2.index t (1 : Fin 2) * 32 ≤ (i 1).val ∧ (i 1).val < win4_2.index t (1 : Fin 2) * 32 + 32; omega

/-- After its 25 points the call's result array holds the product of the arrays it found, whole. -/
theorem result (c : Dev nD) : (dat4 V c).arrAt 2 cfg4.N = prod (V c main_v60) (V c main_arg6) :=
  (dat4 V c).arrAt_eq_of_cover 2 (prod (V c main_v60) (V c main_arg6)) (fun t _ => flushed_eq V c t) cover

end Cert.KernelIdeal.Proj4

end
-- ==== Proof.Proj5.lean ====
/-
  The log-variance head's projection, h2 · W_lv, as the 25 grid points of its call leave it.

  Point t multiplies rows 2000·t … 2000·t + 1999 of the second hidden layer h2 by the whole of W_lv into a zero accumulator.  Rounding
  the two operands to bf16 on the way in changes nothing over the extended reals, so the block's (p, q) entry is the sum
  over k < 64 of the second hidden layer h2(2000·t + p, k) · W_lv(k, q): point t writes back rows 2000·t … 2000·t + 1999 of the 50000 × 32
  array whose (r, q) entry is that sum at row r.  Every row lies in exactly one of the 25 blocks (row r in block r / 2000),
  so after the last point the array holds the product whole.
-/
import proofs.«118265_j22986664968329_2_alg».proof.Proof.Gen.KernelIdeal.Frame
import proofs.«118265_j22986664968329_2_alg».proof.Proof.LibPlainDot
import proofs.«118265_j22986664968329_2_alg».proof.Proof.Proj4
import Idealize.ShloMosaic.Lib.Pipeline.Value
import Idealize.ShloMosaic.Lib.ValueIdx
import Idealize.ShloMosaic.PureOps.Ideal.Laws

set_option maxRecDepth 16384

noncomputable section

namespace Cert.KernelIdeal.Proj5

open Cert.KernelIdeal Cert.KernelIdeal.Gen Idealize.ShloMosaic Idealize.ShloMosaic.TcCoe Idealize.ShloMosaic.ValueIdx
open Idealize.ShloMosaic.Pipeline (Dat Cfg Window)
open Cert.KernelIdeal.Proj4 (prod)

variable (V : (c : Dev nD) → (b : Ref sig .tc) → Buf (Elt Ideal) ((c : Thread nD τ).loc b))

theorem hz : (![0, 0] : Fin 2 → Nat) = fun _ => 0 := funext fun a => by fin_cases a <;> rfl

/-- The left operand the call finds, as a 50000 × 64 array of extended reals. -/
abbrev lft (c : Dev nD) : S50000x64.Idx → EReal := V c main_v60
/-- The right operand the call finds, as a 64 × 32 array of extended reals. -/
abbrev rgt (c : Dev nD) : S64x32.Idx → EReal := V c main_arg8

/-- In the left operand of the block product, the row coordinate of the index read for output (p, q) is p. -/
theorem lhs_row (j : S2000x32.Idx) (k : dot_S2000x64_S64x32_S2000x32_1_0_0_1_n_n.contr.Idx) :
    (dot_S2000x64_S64x32_S2000x32_1_0_0_1_n_n.lhsIdx j k 0).val = (j 0).val := by
  unfold DotDims.lhsIdx
  rw [dif_neg (show ¬(0 : Fin S2000x64.rank) ∈ dot_S2000x64_S64x32_S2000x32_1_0_0_1_n_n.lhsBatch by decide),
    dif_pos (show (0 : Fin S2000x64.rank) ∈ dot_S2000x64_S64x32_S2000x32_1_0_0_1_n_n.lhsNonContracting by decide)]
  rfl

/-- In the right operand, the column coordinate of the index read for output (p, q) is q. -/
theorem rhs_col (j : S2000x32.Idx) (k : dot_S2000x64_S64x32_S2000x32_1_0_0_1_n_n.contr.Idx) :
    (dot_S2000x64_S64x32_S2000x32_1_0_0_1_n_n.rhsIdx j k 1).val = (j 1).val := by
  unfold DotDims.rhsIdx
  rw [dif_neg (show ¬(1 : Fin S64x32.rank) ∈ dot_S2000x64_S64x32_S2000x32_1_0_0_1_n_n.rhsBatch by decide),
    dif_pos (show (1 : Fin S64x32.rank) ∈ dot_S2000x64_S64x32_S2000x32_1_0_0_1_n_n.rhsNonContracting by decide)]
  rfl

/-- The body's stored value at entry (p, q) of the block: the plain sum over k of the loaded blocks' entries (the
    rounding of the operands and the cast to the same shape are the identity, the accumulator starts at zero). -/
theorem pay_apply (x0 : Vec Ideal S2000x64 .f32) (x1 : Vec Ideal S64x32 .f32) (p : Fin 2000) (q : Fin 32) :
    k5_pay1 (F := Ideal) x0 x1 (ix2 p q) = ∑ k : Fin 64, x0 (ix2 p k) * x1 (ix2 k q) := by
  unfold k5_pay1
  show matmul (F := Ideal) dot_S2000x64_S64x32_S2000x32_1_0_0_1_n_n none (truncf (F := Ideal) .bf16 (shapeCast S2000x64 x0 shapeCasts_S2000x64_S2000x64) bitsLt_bf16_f32)
      (truncf (F := Ideal) .bf16 x1 bitsLt_bf16_f32) (constant (F := Ideal) S2000x32 .f32 0x00000000#32) (ix2 p q) = _
  rw [shapeCast_self]
  exact Cert.LibPlainDot.matmul_zero_apply dot_S2000x64_S64x32_S2000x32_1_0_0_1_n_n rfl rfl rfl rfl lhs_row rhs_col none
    (truncf .bf16 x0 bitsLt_bf16_f32) (truncf .bf16 x1 bitsLt_bf16_f32) p q

/-- The printed index maps over the grid: the left operand's block and the result's block move together along the rows (block t at
    point t), W_lv's block never moves, and no block moves along the columns. -/
theorem idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0 :=
  (by decide +kernel : ∀ t : Fin grid5.N, _)

/-- Every one of the 25 row blocks is some point's. -/
theorem idx_onto : ∀ r : Fin 25, ∃ t : Fin cfg5.N, win5_2.index t (0 : Fin 2) = r.val ∧ win5_2.index t (1 : Fin 2) = 0 :=
  (by decide +kernel : ∀ r : Fin 25, ∃ t : Fin grid5.N, win5_2.index t (0 : Fin 2) = r.val ∧ win5_2.index t (1 : Fin 2) = 0)

/-- What point t writes back is block t of the product of the arrays the region finds. -/
theorem flushed_eq (c : Dev nD) (t : Fin cfg5.N) :
    (dat5 V c).flushed 2 t = ((cfg5.win 2).blk t).view.read (Elt Ideal) (prod (lft V c) (rgt V c)) := by
  show (cfg5.win 2).cut (grid5.coords t) ((dat5 V c).after 2 t) = _
  rw [after5_2]
  unfold out5_2
  rw [View.canon_unit_zero hz]
  simp only [View.ld_unit_zero (S := S2000x64) hz, View.ld_unit_zero (S := S64x32) hz]
  obtain ⟨e0, e1, e2, e3, e4⟩ := idx_facts t
  funext j
  obtain ⟨p, q, rfl⟩ : ∃ (p : Fin 2000) (q : Fin 32), j = ix2 p q := ⟨j 0, j 1, eq_ix2 j⟩
  refine (pay_apply (iblk5 V c 0 t) (iblk5 V c 1 t) p q).trans ?_
  show _ = prod (lft V c) (rgt V c) (((cfg5.win 2).blk t).view.emb (ix2 p q))
  unfold Cert.KernelIdeal.Proj4.prod
  refine Finset.sum_congr rfl fun k _ => ?_
  show lft V c (((cfg5.win 0).blk t).view.emb (ix2 p k)) * rgt V c (((cfg5.win 1).blk t).view.emb (ix2 k q)) = _
  have h0 : ((cfg5.win 0).blk t).view.emb (ix2 p k) = ix2 ((((cfg5.win 2).blk t).view.emb (ix2 p q)) 0) k := by
    funext a; apply Fin.ext
    match a with
    | ⟨0, _⟩ => show win5_0.index t (0 : Fin 2) * 2000 + 1 * p.val = win5_2.index t (0 : Fin 2) * 2000 + 1 * p.val; omega
    | ⟨1, _⟩ => show win5_0.index t (1 : Fin 2) * 64 + 1 * k.val = k.val; omega
  have h1 : ((cfg5.win 1).blk t).view.emb (ix2 k q) = ix2 k ((((cfg5.win 2).blk t).view.emb (ix2 p q)) 1) := by
    funext a; apply Fin.ext
    match a with
    | ⟨0, _⟩ => show win5_1.index t (0 : Fin 2) * 64 + 1 * k.val = k.val; omega
    | ⟨1, _⟩ => show win5_1.index t (1 : Fin 2) * 32 + 1 * q.val = win5_2.index t (1 : Fin 2) * 32 + 1 * q.val; omega
  rw [h0, h1]
  rfl

/-- An index of the array is in point t's block iff each coordinate is in the block's range on its axis. -/
theorem mem_blk (t : Fin cfg5.N) (i : S50000x32.Idx) :
    i ∈ ((cfg5.win 2).blk t).view.set ↔ ∀ a : Fin 2, win5_2.index t a * S2000x32.size a ≤ (i a).val ∧ (i a).val < win5_2.index t a * S2000x32.size a + S2000x32.size a := by
  show i ∈ ((View.whole main_v75).slice (win5_2.rect t)).set ↔ _
  rw [View.set_slice_whole, Rect.mem_set_unit]
  exact Iff.rfl

/-- The 25 blocks cover the array: row r is in the block of point r / 2000. -/
theorem cover (i : S50000x32.Idx) : ∃ t : Fin cfg5.N, (cfg5.win 2).flush t = true ∧ i ∈ ((cfg5.win 2).blk t).view.set := by
  have hi0 : (i 0).val < 50000 := (i 0).isLt
  have hi1 : (i 1).val < 32 := (i 1).isLt
  obtain ⟨t, q0, q1⟩ := idx_onto ⟨(i 0).val / 2000, by omega⟩
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; simp only at q0; omega
  | ⟨1, _⟩ => show win5_2.index t (1 : Fin 2) * 32 ≤ (i 1).val ∧ (i 1).val < win5_2.index t (1 : Fin 2) * 32 + 32; omega

/-- After its 25 points the call's result array holds the product of the arrays it found, whole. -/
theorem result (c : Dev nD) : (dat5 V c).arrAt 2 cfg5.N = prod (V c main_v60) (V c main_arg8) :=
  (dat5 V c).arrAt_eq_of_cover 2 (prod (V c main_v60) (V c main_arg8)) (fun t _ => flushed_eq V c t) cover

end Cert.KernelIdeal.Proj5

end
-- ==== Proof.Heads.lean ====
/-
  The two output heads of the kernel's program up to the last call, read in the reference's words.

  The mean head: the projection h2 · W_mu, then its rows gathered at the edge sources, scaled by the normalisation and
  scatter-added at the targets.  The log-variance head: the same with W_lv, read from the same second hidden layer,
  which the calls and stretches in between leave untouched.  For each head the reference recomputes the edge lists and
  the normalisation by the same operations on the same edge array: they are the arrays the program computed once.  The
  two bias vectors reach the last call recast as 1 × 32 rows.
-/
import proofs.«118265_j22986664968329_2_alg».proof.Proof.Gen.ReferenceIdeal.Read
import proofs.«118265_j22986664968329_2_alg».proof.Proof.Graph
import proofs.«118265_j22986664968329_2_alg».proof.Proof.Kept
import proofs.«118265_j22986664968329_2_alg».proof.Proof.Layer2
import proofs.«118265_j22986664968329_2_alg».proof.Proof.Proj4
import proofs.«118265_j22986664968329_2_alg».proof.Proof.Proj5
import Idealize.ShloMosaic.Lib.ValueLayout

set_option maxRecDepth 16384

noncomputable section

namespace Cert.KernelIdeal.Heads

open Cert.KernelIdeal Cert.KernelIdeal.Gen Idealize.ShloMosaic Idealize.ShloMosaic.TcCoe Idealize.ShloMosaic.StableHlo
open Idealize.ShloMosaic.ValueIdx
open Cert.ReferenceIdeal.Read

variable (m : (ℓ : Loc nD τ sig) → Buf (Elt Ideal) ℓ) (ρ : Dev nD → PrngReg)

/-- After the mean head's projection call: h2 · W_mu. -/
theorem mean_projected (c : Dev nD) : W8 m ρ c (Proc.devRef .tc main_v61)
    = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  refine (Proj4.result (V7 m ρ) c).trans ?_
  show Proj4.prod (W7 m ρ c (Proc.devRef .tc main_v60)) (W7 m ρ c (Proc.devRef .tc main_arg6)) = _
  rw [Layer2.hidden, Kept.arg6_at7]
  funext i
  rw [val_main_v90_apply]
  unfold Proj4.prod
  refine Finset.sum_congr rfl fun k _ => ?_
  have el : (ix2 (i 0) k : S50000x64.Idx) = lidx_main_v90 i k :=
    funext fun a => Fin.ext (by match a with | ⟨0, _⟩ => rfl | ⟨1, _⟩ => rfl)
  have er : (ix2 k (i 1) : S64x32.Idx) = ridx_main_v90 i k :=
    funext fun a => Fin.ext (by match a with | ⟨0, _⟩ => rfl | ⟨1, _⟩ => rfl)
  rw [el, er]

/-- After the stretch that follows: the mean head's projection gathered, scaled, scatter-added. -/
theorem mean_propagated (c : Dev nD) : W9 m ρ c (Proc.devRef .tc main_v74)
    = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v74) = _
  after_results_simp
  rw [mean_projected, Kept.v5_at8, Kept.v6_at8, Kept.v28_at8, Graph.src, Graph.dst, Graph.norm]
  rfl

/-- After the log-variance head's projection call: h2 · W_lv. -/
theorem logvar_projected (c : Dev nD) : W10 m ρ c (Proc.devRef .tc main_v75)
    = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  refine (W10_arr m ρ c 2).trans ?_
  refine (Proj5.result (V9 m ρ) c).trans ?_
  show Proj4.prod (W9 m ρ c (Proc.devRef .tc main_v60)) (W9 m ρ c (Proc.devRef .tc main_arg8)) = _
  rw [Kept.v60_at9, Layer2.hidden, Kept.arg8_at9]
  funext i
  rw [val_main_v132_apply]
  unfold Proj4.prod
  refine Finset.sum_congr rfl fun k _ => ?_
  have el : (ix2 (i 0) k : S50000x64.Idx) = lidx_main_v132 i k :=
    funext fun a => Fin.ext (by match a with | ⟨0, _⟩ => rfl | ⟨1, _⟩ => rfl)
  have er : (ix2 k (i 1) : S64x32.Idx) = ridx_main_v132 i k :=
    funext fun a => Fin.ext (by match a with | ⟨0, _⟩ => rfl | ⟨1, _⟩ => rfl)
  rw [el, er]

/-- After the last stretch: the log-variance head's projection gathered, scaled, scatter-added. -/
theorem logvar_propagated (c : Dev nD) : W11 m ρ c (Proc.devRef .tc main_v88)
    = val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  show StableHlo.after hostOps6 (W10 m ρ c) (Proc.devRef .tc main_v88) = _
  after_results_simp
  rw [logvar_projected, Kept.v5_at10, Kept.v6_at10, Kept.v28_at10, Graph.src, Graph.dst, Graph.norm]
  rfl

/-- The mean head's bias as the last call finds it: b_mu recast as a 1 × 32 array. -/
theorem mean_bias_row (c : Dev nD) : W11 m ρ c (Proc.devRef .tc main_v89)
    = shapeCast S1x32 (m ((c : Thread nD τ).loc main_arg7)) shapeCasts_S32_S1x32 := by
  show StableHlo.after hostOps6 (W10 m ρ c) (Proc.devRef .tc main_v89) = _
  after_results
  rw [Kept.arg7_at10]
  rfl

/-- The log-variance head's bias as the last call finds it: b_lv recast as a 1 × 32 array. -/
theorem logvar_bias_row (c : Dev nD) : W11 m ρ c (Proc.devRef .tc main_v90)
    = shapeCast S1x32 (m ((c : Thread nD τ).loc main_arg9)) shapeCasts_S32_S1x32 := by
  show StableHlo.after hostOps6 (W10 m ρ c) (Proc.devRef .tc main_v90) = _
  after_results
  rw [Kept.arg9_at10]
  rfl

end Cert.KernelIdeal.Heads

end
-- ==== Proof.Sample6.lean ====
/-
  The last call: the two bias additions and the reparameterised sample, as its 25 grid points leave them.

  Point t takes rows 2000·t … 2000·t + 1999 of the two propagated heads and of the noise, and the two 1 × 32 bias rows.
  It stores mean = head_mu + bias_mu, logvar = head_lv + bias_lv, and sample = mean + exp (1/2 · logvar) · noise, entry by
  entry.  So point t writes back rows 2000·t … 2000·t + 1999 of three 50000 × 32 arrays, each one function of the
  arrays the call finds; the 25 blocks tile the rows of each, and the three arrays end holding those functions whole.
-/
import proofs.«118265_j22986664968329_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Sample6

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The arrays the call finds, as arrays of extended reals: the two propagated heads, their bias rows, the noise. -/
abbrev hmu (c : Dev nD) : S50000x32.Idx → EReal := V c main_v74
abbrev bmu (c : Dev nD) : S1x32.Idx → EReal := V c main_v89
abbrev hlv (c : Dev nD) : S50000x32.Idx → EReal := V c main_v88
abbrev blv (c : Dev nD) : S1x32.Idx → EReal := V c main_v90
abbrev noise (c : Dev nD) : S50000x32.Idx → EReal := V c main_arg10

/-- Rows plus a bias row: entry (r, q) is a(r, q) + b(0, q). -/
def biased (a : S50000x32.Idx → EReal) (b : S1x32.Idx → EReal) : S50000x32.Idx → EReal :=
  fun i => a i + b (ix2 (0 : Fin 1) (i 1))

/-- The reparameterised sample: entry by entry, mean + exp (1/2 · logvar) · noise. -/
def sample (mu lv eps : S50000x32.Idx → EReal) : S50000x32.Idx → EReal :=
  fun i => mu i + Ideal.exp (Scalar.ofBits (F := Ideal) .f32 0x3F000000#32 * lv i) * eps i

/-- The stored mean at entry (p, q) of the block. -/
theorem mean_apply (x0 : Vec Ideal S2000x32 .f32) (x1 : Vec Ideal S1x32 .f32) (p : Fin 2000) (q : Fin 32) :
    k6_pay1 (F := Ideal) x0 x1 (ix2 p q) = x0 (ix2 p q) + x1 (ix2 (0 : Fin 1) q) := by
  unfold k6_pay1
  show shapeCast S2000x32 x0 shapeCasts_S2000x32_S2000x32 (ix2 p q)
      + broadcastTo S2000x32 (shapeCast S1x32 x1 shapeCasts_S1x32_S1x32) broadcasts_S1x32_S2000x32 (ix2 p q) = _
  rw [shapeCast_self, shapeCast_self, broadcastTo_1b_ab_apply]

/-- The stored log-variance at entry (p, q) of the block. -/
theorem logvar_apply (x2 : Vec Ideal S2000x32 .f32) (x3 : Vec Ideal S1x32 .f32) (p : Fin 2000) (q : Fin 32) :
    k6_pay2 (F := Ideal) x2 x3 (ix2 p q) = x2 (ix2 p q) + x3 (ix2 (0 : Fin 1) q) := by
  unfold k6_pay2
  show shapeCast S2000x32 x2 shapeCasts_S2000x32_S2000x32 (ix2 p q)
      + broadcastTo S2000x32 (shapeCast S1x32 x3 shapeCasts_S1x32_S1x32) broadcasts_S1x32_S2000x32 (ix2 p q) = _
  rw [shapeCast_self, shapeCast_self, broadcastTo_1b_ab_apply]

/-- The stored sample at entry (p, q) of the block. -/
theorem sample_apply (x0 : Vec Ideal S2000x32 .f32) (x1 : Vec Ideal S1x32 .f32) (x2 : Vec Ideal S2000x32 .f32)
    (x3 : Vec Ideal S1x32 .f32) (x4 : Vec Ideal S2000x32 .f32) (p : Fin 2000) (q : Fin 32) :
    k6_pay3 (F := Ideal) x0 x1 x2 x3 x4 (ix2 p q)
      = (x0 (ix2 p q) + x1 (ix2 (0 : Fin 1) q))
        + Ideal.exp (Scalar.ofBits (F := Ideal) .f32 0x3F000000#32 * (x2 (ix2 p q) + x3 (ix2 (0 : Fin 1) q))) * x4 (ix2 p q) := by
  unfold k6_pay3
  show k6_pay1 (F := Ideal) x0 x1 (ix2 p q)
      + Ideal.exp (Scalar.ofBits (F := Ideal) .f32 0x3F000000#32 * k6_pay2 (F := Ideal) x2 x3 (ix2 p q)) * x4 (ix2 p q) = _
  rw [mean_apply, logvar_apply]

/-- The printed index maps over the grid: the three row-tiled inputs and the three outputs move together along the rows
    (block t at point t), the two bias rows never move, and no block moves along the columns. -/
theorem idx_facts : ∀ t : Fin cfg6.N, win6_0.index t (0 : Fin 2) = win6_5.index t (0 : Fin 2)
    ∧ win6_0.index t (1 : Fin 2) = 0
    ∧ win6_1.index t (0 : Fin 2) = 0
    ∧ win6_1.index t (1 : Fin 2) = 0
    ∧ win6_2.index t (0 : Fin 2) = win6_5.index t (0 : Fin 2)
    ∧ win6_2.index t (1 : Fin 2) = 0
    ∧ win6_3.index t (0 : Fin 2) = 0
    ∧ win6_3.index t (1 : Fin 2) = 0
    ∧ win6_4.index t (0 : Fin 2) = win6_5.index t (0 : Fin 2)
    ∧ win6_4.index t (1 : Fin 2) = 0
    ∧ win6_5.index t (1 : Fin 2) = 0
    ∧ win6_6.index t (0 : Fin 2) = win6_5.index t (0 : Fin 2)
    ∧ win6_6.index t (1 : Fin 2) = 0
    ∧ win6_7.index t (0 : Fin 2) = win6_5.index t (0 : Fin 2)
    ∧ win6_7.index t (1 : Fin 2) = 0 :=
  (by decide +kernel : ∀ t : Fin grid6.N, _)

/-- Every one of the 25 row blocks of each output is some point's. -/
theorem idx_onto_z : ∀ r : Fin 25, ∃ t : Fin cfg6.N, win6_5.index t (0 : Fin 2) = r.val ∧ win6_5.index t (1 : Fin 2) = 0 :=
  (by decide +kernel : ∀ r : Fin 25, ∃ t : Fin grid6.N, win6_5.index t (0 : Fin 2) = r.val ∧ win6_5.index t (1 : Fin 2) = 0)
theorem idx_onto_mu : ∀ r : Fin 25, ∃ t : Fin cfg6.N, win6_6.index t (0 : Fin 2) = r.val ∧ win6_6.index t (1 : Fin 2) = 0 :=
  (by decide +kernel : ∀ r : Fin 25, ∃ t : Fin grid6.N, win6_6.index t (0 : Fin 2) = r.val ∧ win6_6.index t (1 : Fin 2) = 0)
theorem idx_onto_lv : ∀ r : Fin 25, ∃ t : Fin cfg6.N, win6_7.index t (0 : Fin 2) = r.val ∧ win6_7.index t (1 : Fin 2) = 0 :=
  (by decide +kernel : ∀ r : Fin 25, ∃ t : Fin grid6.N, win6_7.index t (0 : Fin 2) = r.val ∧ win6_7.index t (1 : Fin 2) = 0)

/-- What point t writes back to the mean's array is block t of the biased first head. -/
theorem flushed_mu (c : Dev nD) (t : Fin cfg6.N) :
    (dat6 V c).flushed 6 t = ((cfg6.win 6).blk t).view.read (Elt Ideal) (biased (hmu V c) (bmu V c)) := by
  show (cfg6.win 6).cut (grid6.coords t) ((dat6 V c).after 6 t) = _
  rw [after6_6]
  unfold out6_6
  rw [View.canon_unit_zero hz]
  simp only [View.ld_unit_zero (S := S2000x32) hz, View.ld_unit_zero (S := S1x32) hz]
  obtain ⟨e0, e1, e2, e3, e4, e5, e6, e7, e8, e9, e10, e11, e12, e13, e14⟩ := idx_facts t
  funext j
  obtain ⟨p, q, rfl⟩ : ∃ (p : Fin 2000) (q : Fin 32), j = ix2 p q := ⟨j 0, j 1, eq_ix2 j⟩
  refine (mean_apply (iblk6 V c 0 t) (iblk6 V c 1 t) p q).trans ?_
  show hmu V c (((cfg6.win 0).blk t).view.emb (ix2 p q)) + bmu V c (((cfg6.win 1).blk t).view.emb (ix2 (0 : Fin 1) q))
    = biased (hmu V c) (bmu V c) (((cfg6.win 6).blk t).view.emb (ix2 p q))
  unfold biased
  have h0 : ((cfg6.win 0).blk t).view.emb (ix2 p q) = ((cfg6.win 6).blk t).view.emb (ix2 p q) := by
    funext a; apply Fin.ext
    match a with
    | ⟨0, _⟩ => show win6_0.index t (0 : Fin 2) * 2000 + 1 * p.val = win6_6.index t (0 : Fin 2) * 2000 + 1 * p.val; omega
    | ⟨1, _⟩ => show win6_0.index t (1 : Fin 2) * 32 + 1 * q.val = win6_6.index t (1 : Fin 2) * 32 + 1 * q.val; omega
  have h1 : ((cfg6.win 1).blk t).view.emb (ix2 (0 : Fin 1) q) = ix2 (0 : Fin 1) ((((cfg6.win 6).blk t).view.emb (ix2 p q)) 1) := by
    funext a; apply Fin.ext
    match a with
    | ⟨0, _⟩ => show win6_1.index t (0 : Fin 2) * 1 + 1 * 0 = 0; omega
    | ⟨1, _⟩ => show win6_1.index t (1 : Fin 2) * 32 + 1 * q.val = win6_6.index t (1 : Fin 2) * 32 + 1 * q.val; omega
  rw [h0, h1]
  rfl

/-- What point t writes back to the log-variance's array is block t of the biased second head. -/
theorem flushed_lv (c : Dev nD) (t : Fin cfg6.N) :
    (dat6 V c).flushed 7 t = ((cfg6.win 7).blk t).view.read (Elt Ideal) (biased (hlv V c) (blv V c)) := by
  show (cfg6.win 7).cut (grid6.coords t) ((dat6 V c).after 7 t) = _
  rw [after6_7]
  unfold out6_7
  rw [View.canon_unit_zero hz]
  simp only [View.ld_unit_zero (S := S2000x32) hz, View.ld_unit_zero (S := S1x32) hz]
  obtain ⟨e0, e1, e2, e3, e4, e5, e6, e7, e8, e9, e10, e11, e12, e13, e14⟩ := idx_facts t
  funext j
  obtain ⟨p, q, rfl⟩ : ∃ (p : Fin 2000) (q : Fin 32), j = ix2 p q := ⟨j 0, j 1, eq_ix2 j⟩
  refine (logvar_apply (iblk6 V c 2 t) (iblk6 V c 3 t) p q).trans ?_
  show hlv V c (((cfg6.win 2).blk t).view.emb (ix2 p q)) + blv V c (((cfg6.win 3).blk t).view.emb (ix2 (0 : Fin 1) q))
    = biased (hlv V c) (blv V c) (((cfg6.win 7).blk t).view.emb (ix2 p q))
  unfold biased
  have h2 : ((cfg6.win 2).blk t).view.emb (ix2 p q) = ((cfg6.win 7).blk t).view.emb (ix2 p q) := by
    funext a; apply Fin.ext
    match a with
    | ⟨0, _⟩ => show win6_2.index t (0 : Fin 2) * 2000 + 1 * p.val = win6_7.index t (0 : Fin 2) * 2000 + 1 * p.val; omega
    | ⟨1, _⟩ => show win6_2.index t (1 : Fin 2) * 32 + 1 * q.val = win6_7.index t (1 : Fin 2) * 32 + 1 * q.val; omega
  have h3 : ((cfg6.win 3).blk t).view.emb (ix2 (0 : Fin 1) q) = ix2 (0 : Fin 1) ((((cfg6.win 7).blk t).view.emb (ix2 p q)) 1) := by
    funext a; apply Fin.ext
    match a with
    | ⟨0, _⟩ => show win6_3.index t (0 : Fin 2) * 1 + 1 * 0 = 0; omega
    | ⟨1, _⟩ => show win6_3.index t (1 : Fin 2) * 32 + 1 * q.val = win6_7.index t (1 : Fin 2) * 32 + 1 * q.val; omega
  rw [h2, h3]
  rfl

set_option maxHeartbeats 2000000 in
/-- What point t writes back to the sample's array is block t of the sample drawn from the two biased heads and the noise. -/
theorem flushed_z (c : Dev nD) (t : Fin cfg6.N) :
    (dat6 V c).flushed 5 t = ((cfg6.win 5).blk t).view.read (Elt Ideal)
      (sample (biased (hmu V c) (bmu V c)) (biased (hlv V c) (blv V c)) (noise V c)) := by
  show (cfg6.win 5).cut (grid6.coords t) ((dat6 V c).after 5 t) = _
  rw [after6_5]
  unfold out6_5
  rw [View.canon_unit_zero hz]
  simp only [View.ld_unit_zero (S := S2000x32) hz, View.ld_unit_zero (S := S1x32) hz]
  obtain ⟨e0, e1, e2, e3, e4, e5, e6, e7, e8, e9, e10, e11, e12, e13, e14⟩ := idx_facts t
  funext j
  obtain ⟨p, q, rfl⟩ : ∃ (p : Fin 2000) (q : Fin 32), j = ix2 p q := ⟨j 0, j 1, eq_ix2 j⟩
  refine (sample_apply (iblk6 V c 0 t) (iblk6 V c 1 t) (iblk6 V c 2 t) (iblk6 V c 3 t) (iblk6 V c 4 t) p q).trans ?_
  show (hmu V c (((cfg6.win 0).blk t).view.emb (ix2 p q)) + bmu V c (((cfg6.win 1).blk t).view.emb (ix2 (0 : Fin 1) q)))
      + Ideal.exp (Scalar.ofBits (F := Ideal) .f32 0x3F000000#32
          * (hlv V c (((cfg6.win 2).blk t).view.emb (ix2 p q)) + blv V c (((cfg6.win 3).blk t).view.emb (ix2 (0 : Fin 1) q))))
        * noise V c (((cfg6.win 4).blk t).view.emb (ix2 p q))
    = sample (biased (hmu V c) (bmu V c)) (biased (hlv V c) (blv V c)) (noise V c) (((cfg6.win 5).blk t).view.emb (ix2 p q))
  unfold sample biased
  have h0 : ((cfg6.win 0).blk t).view.emb (ix2 p q) = ((cfg6.win 5).blk t).view.emb (ix2 p q) := by
    funext a; apply Fin.ext
    match a with
    | ⟨0, _⟩ => show win6_0.index t (0 : Fin 2) * 2000 + 1 * p.val = win6_5.index t (0 : Fin 2) * 2000 + 1 * p.val; omega
    | ⟨1, _⟩ => show win6_0.index t (1 : Fin 2) * 32 + 1 * q.val = win6_5.index t (1 : Fin 2) * 32 + 1 * q.val; omega
  have h1 : ((cfg6.win 1).blk t).view.emb (ix2 (0 : Fin 1) q) = ix2 (0 : Fin 1) ((((cfg6.win 5).blk t).view.emb (ix2 p q)) 1) := by
    funext a; apply Fin.ext
    match a with
    | ⟨0, _⟩ => show win6_1.index t (0 : Fin 2) * 1 + 1 * 0 = 0; omega
    | ⟨1, _⟩ => show win6_1.index t (1 : Fin 2) * 32 + 1 * q.val = win6_5.index t (1 : Fin 2) * 32 + 1 * q.val; omega
  have h2 : ((cfg6.win 2).blk t).view.emb (ix2 p q) = ((cfg6.win 5).blk t).view.emb (ix2 p q) := by
    funext a; apply Fin.ext
    match a with
    | ⟨0, _⟩ => show win6_2.index t (0 : Fin 2) * 2000 + 1 * p.val = win6_5.index t (0 : Fin 2) * 2000 + 1 * p.val; omega
    | ⟨1, _⟩ => show win6_2.index t (1 : Fin 2) * 32 + 1 * q.val = win6_5.index t (1 : Fin 2) * 32 + 1 * q.val; omega
  have h3 : ((cfg6.win 3).blk t).view.emb (ix2 (0 : Fin 1) q) = ix2 (0 : Fin 1) ((((cfg6.win 5).blk t).view.emb (ix2 p q)) 1) := by
    funext a; apply Fin.ext
    match a with
    | ⟨0, _⟩ => show win6_3.index t (0 : Fin 2) * 1 + 1 * 0 = 0; omega
    | ⟨1, _⟩ => show win6_3.index t (1 : Fin 2) * 32 + 1 * q.val = win6_5.index t (1 : Fin 2) * 32 + 1 * q.val; omega
  have h4 : ((cfg6.win 4).blk t).view.emb (ix2 p q) = ((cfg6.win 5).blk t).view.emb (ix2 p q) := by
    funext a; apply Fin.ext
    match a with
    | ⟨0, _⟩ => show win6_4.index t (0 : Fin 2) * 2000 + 1 * p.val = win6_5.index t (0 : Fin 2) * 2000 + 1 * p.val; omega
    | ⟨1, _⟩ => show win6_4.index t (1 : Fin 2) * 32 + 1 * q.val = win6_5.index t (1 : Fin 2) * 32 + 1 * q.val; omega
  rw [h0, h1, h2, h3, h4]
  rfl

/-- An index of the array is in point t's block iff each coordinate is in the block's range on its axis. -/
theorem mem_blk_z (t : Fin cfg6.N) (i : S50000x32.Idx) :
    i ∈ ((cfg6.win 5).blk t).view.set ↔ ∀ a : Fin 2, win6_5.index t a * S2000x32.size a ≤ (i a).val ∧ (i a).val < win6_5.index t a * S2000x32.size a + S2000x32.size a := by
  show i ∈ ((View.whole main_v91_0).slice (win6_5.rect t)).set ↔ _
  rw [View.set_slice_whole, Rect.mem_set_unit]
  exact Iff.rfl

/-- The 25 blocks cover the array: row r is in the block of point r / 2000. -/
theorem cover_z (i : S50000x32.Idx) : ∃ t : Fin cfg6.N, (cfg6.win 5).flush t = true ∧ i ∈ ((cfg6.win 5).blk t).view.set := by
  have hi0 : (i 0).val < 50000 := (i 0).isLt
  have hi1 : (i 1).val < 32 := (i 1).isLt
  obtain ⟨t, q0, q1⟩ := idx_onto_z ⟨(i 0).val / 2000, by omega⟩
  refine ⟨t, flush6_5 t, ?_⟩
  rw [mem_blk_z]
  intro a
  match a with
  | ⟨0, _⟩ => show win6_5.index t (0 : Fin 2) * 2000 ≤ (i 0).val ∧ (i 0).val < win6_5.index t (0 : Fin 2) * 2000 + 2000; simp only at q0; omega
  | ⟨1, _⟩ => show win6_5.index t (1 : Fin 2) * 32 ≤ (i 1).val ∧ (i 1).val < win6_5.index t (1 : Fin 2) * 32 + 32; omega

/-- An index of the array is in point t's block iff each coordinate is in the block's range on its axis. -/
theorem mem_blk_mu (t : Fin cfg6.N) (i : S50000x32.Idx) :
    i ∈ ((cfg6.win 6).blk t).view.set ↔ ∀ a : Fin 2, win6_6.index t a * S2000x32.size a ≤ (i a).val ∧ (i a).val < win6_6.index t a * S2000x32.size a + S2000x32.size a := by
  show i ∈ ((View.whole main_v91_1).slice (win6_6.rect t)).set ↔ _
  rw [View.set_slice_whole, Rect.mem_set_unit]
  exact Iff.rfl

/-- The 25 blocks cover the array: row r is in the block of point r / 2000. -/
theorem cover_mu (i : S50000x32.Idx) : ∃ t : Fin cfg6.N, (cfg6.win 6).flush t = true ∧ i ∈ ((cfg6.win 6).blk t).view.set := by
  have hi0 : (i 0).val < 50000 := (i 0).isLt
  have hi1 : (i 1).val < 32 := (i 1).isLt
  obtain ⟨t, q0, q1⟩ := idx_onto_mu ⟨(i 0).val / 2000, by omega⟩
  refine ⟨t, flush6_6 t, ?_⟩
  rw [mem_blk_mu]
  intro a
  match a with
  | ⟨0, _⟩ => show win6_6.index t (0 : Fin 2) * 2000 ≤ (i 0).val ∧ (i 0).val < win6_6.index t (0 : Fin 2) * 2000 + 2000; simp only at q0; omega
  | ⟨1, _⟩ => show win6_6.index t (1 : Fin 2) * 32 ≤ (i 1).val ∧ (i 1).val < win6_6.index t (1 : Fin 2) * 32 + 32; omega

/-- An index of the array is in point t's block iff each coordinate is in the block's range on its axis. -/
theorem mem_blk_lv (t : Fin cfg6.N) (i : S50000x32.Idx) :
    i ∈ ((cfg6.win 7).blk t).view.set ↔ ∀ a : Fin 2, win6_7.index t a * S2000x32.size a ≤ (i a).val ∧ (i a).val < win6_7.index t a * S2000x32.size a + S2000x32.size a := by
  show i ∈ ((View.whole main_v91_2).slice (win6_7.rect t)).set ↔ _
  rw [View.set_slice_whole, Rect.mem_set_unit]
  exact Iff.rfl

/-- The 25 blocks cover the array: row r is in the block of point r / 2000. -/
theorem cover_lv (i : S50000x32.Idx) : ∃ t : Fin cfg6.N, (cfg6.win 7).flush t = true ∧ i ∈ ((cfg6.win 7).blk t).view.set := by
  have hi0 : (i 0).val < 50000 := (i 0).isLt
  have hi1 : (i 1).val < 32 := (i 1).isLt
  obtain ⟨t, q0, q1⟩ := idx_onto_lv ⟨(i 0).val / 2000, by omega⟩
  refine ⟨t, flush6_7 t, ?_⟩
  rw [mem_blk_lv]
  intro a
  match a with
  | ⟨0, _⟩ => show win6_7.index t (0 : Fin 2) * 2000 ≤ (i 0).val ∧ (i 0).val < win6_7.index t (0 : Fin 2) * 2000 + 2000; simp only at q0; omega
  | ⟨1, _⟩ => show win6_7.index t (1 : Fin 2) * 32 ≤ (i 1).val ∧ (i 1).val < win6_7.index t (1 : Fin 2) * 32 + 32; omega

/-- After the 25 points the mean's array holds the biased first head, whole. -/
theorem result_mu (c : Dev nD) : (dat6 V c).arrAt 6 cfg6.N = biased (V c main_v74) (V c main_v89) :=
  (dat6 V c).arrAt_eq_of_cover 6 (biased (V c main_v74) (V c main_v89)) (fun t _ => flushed_mu V c t) cover_mu

/-- After the 25 points the log-variance's array holds the biased second head, whole. -/
theorem result_lv (c : Dev nD) : (dat6 V c).arrAt 7 cfg6.N = biased (V c main_v88) (V c main_v90) :=
  (dat6 V c).arrAt_eq_of_cover 7 (biased (V c main_v88) (V c main_v90)) (fun t _ => flushed_lv V c t) cover_lv

/-- After the 25 points the sample's array holds the sample drawn from the two biased heads and the noise, whole. -/
theorem result_z (c : Dev nD) : (dat6 V c).arrAt 5 cfg6.N
    = sample (biased (V c main_v74) (V c main_v89)) (biased (V c main_v88) (V c main_v90)) (V c main_arg10) :=
  (dat6 V c).arrAt_eq_of_cover 5 _ (fun t _ => flushed_z V c t) cover_z

end Cert.KernelIdeal.Sample6

end
-- ==== Proof.Outputs.lean ====
/-
  The three results of the kernel's program, read in the reference's words.

  The last call finds the two propagated heads, their bias rows and the noise, and leaves mean = head_mu + b_mu,
  logvar = head_lv + b_lv and sample = mean + exp (1/2 · logvar) · noise.  The reference adds each bias broadcast along the
  columns — the same row at every node — and computes the sample by the same operations in the same order, the host's
  exponential being the kernel's on the extended reals.  So the three result arrays are the reference's three results
  as functions of the eleven argument arrays.
-/
import proofs.«118265_j22986664968329_2_alg».proof.Proof.Gen.ReferenceIdeal.Read
import proofs.«118265_j22986664968329_2_alg».proof.Proof.Kept
import proofs.«118265_j22986664968329_2_alg».proof.Proof.Heads
import proofs.«118265_j22986664968329_2_alg».proof.Proof.Sample6
import Idealize.ShloMosaic.Lib.ValueLayout

set_option maxRecDepth 16384

noncomputable section

namespace Cert.KernelIdeal.Outputs

open Cert.KernelIdeal Cert.KernelIdeal.Gen Idealize.ShloMosaic Idealize.ShloMosaic.TcCoe Idealize.ShloMosaic.StableHlo
open Idealize.ShloMosaic.ValueIdx
open Cert.ReferenceIdeal.Read

variable (m : (ℓ : Loc nD τ sig) → Buf (Elt Ideal) ℓ) (ρ : Dev nD → PrngReg)

/-- Rows plus the recast bias is the reference's sum with the bias broadcast along the columns. -/
theorem mean_bias_eq (a : S50000x32.Idx → EReal) (b : S32.Idx → EReal) :
    Sample6.biased a (shapeCast S1x32 b shapeCasts_S32_S1x32)
      = addf (F := Ideal) (φ := .f32) a (val_main_v130 (F := Ideal) b) := by
  funext i
  obtain ⟨r, q, rfl⟩ : ∃ (r : Fin 50000) (q : Fin 32), i = ix2 r q := ⟨i 0, i 1, eq_ix2 i⟩
  show a (ix2 r q) + shapeCast S1x32 b shapeCasts_S32_S1x32 (ix2 (0 : Fin 1) q) = a (ix2 r q) + val_main_v130 (F := Ideal) b (ix2 r q)
  rw [shapeCast_a_1a_apply, val_main_v130_apply, val_main_v129_apply]
  have e : (ix1 q : S32.Idx) = idx_main_v129 (idx_main_v130 (ix2 r q)) :=
    funext fun a => Fin.ext (by match a with | ⟨0, _⟩ => rfl)
  rw [e]

/-- Rows plus the recast bias is the reference's sum with the bias broadcast along the columns. -/
theorem logvar_bias_eq (a : S50000x32.Idx → EReal) (b : S32.Idx → EReal) :
    Sample6.biased a (shapeCast S1x32 b shapeCasts_S32_S1x32)
      = addf (F := Ideal) (φ := .f32) a (val_main_v172 (F := Ideal) b) := by
  funext i
  obtain ⟨r, q, rfl⟩ : ∃ (r : Fin 50000) (q : Fin 32), i = ix2 r q := ⟨i 0, i 1, eq_ix2 i⟩
  show a (ix2 r q) + shapeCast S1x32 b shapeCasts_S32_S1x32 (ix2 (0 : Fin 1) q) = a (ix2 r q) + val_main_v172 (F := Ideal) b (ix2 r q)
  rw [shapeCast_a_1a_apply, val_main_v172_apply, val_main_v171_apply]
  have e : (ix1 q : S32.Idx) = idx_main_v171 (idx_main_v172 (ix2 r q)) :=
    funext fun a => Fin.ext (by match a with | ⟨0, _⟩ => rfl)
  rw [e]

/-- The sample drawn from a mean, a log-variance and a noise array is the reference's mean + exp (1/2 · logvar) · noise, its
    exponential and its broadcast one half being the kernel's. -/
theorem sample_eq (P Q E : S50000x32.Idx → EReal) :
    Sample6.sample P Q E
      = addf (F := Ideal) (φ := .f32) P (mulf (Host.exp (mulf (val_main_v174 (F := Ideal)) Q)) E) := by
  funext i
  show P i + Ideal.exp (Scalar.ofBits (F := Ideal) .f32 0x3F000000#32 * Q i) * E i
    = FloatOps.addf (F := Ideal) (φ := .f32) (P i) (FloatOps.mulf (F := Ideal) (φ := .f32)
        (FloatOps.hostUnary (F := Ideal) (φ := .f32) .exp (FloatOps.mulf (F := Ideal) (φ := .f32) (val_main_v174 (F := Ideal) i) (Q i))) (E i))
  rw [val_main_v174_apply, val_main_cst_38_apply]
  rfl

/-- The mean. -/
theorem mean (c : Dev nD) : W12 m ρ c (Proc.devRef .tc main_v91_1)
    = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 6).trans ?_
  refine (Sample6.result_mu (V11 m ρ) c).trans ?_
  show Sample6.biased (W11 m ρ c (Proc.devRef .tc main_v74)) (W11 m ρ c (Proc.devRef .tc main_v89)) = _
  rw [Kept.v74_at11, Heads.mean_propagated, Heads.mean_bias_row]
  exact mean_bias_eq _ _

/-- The log-variance. -/
theorem logvar (c : Dev nD) : W12 m ρ c (Proc.devRef .tc main_v91_2)
    = val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  refine (W12_arr m ρ c 7).trans ?_
  refine (Sample6.result_lv (V11 m ρ) c).trans ?_
  show Sample6.biased (W11 m ρ c (Proc.devRef .tc main_v88)) (W11 m ρ c (Proc.devRef .tc main_v90)) = _
  rw [Heads.logvar_propagated, Heads.logvar_bias_row]
  exact logvar_bias_eq _ _

/-- The reparameterised sample. -/
theorem sample (c : Dev nD) : W12 m ρ c (Proc.devRef .tc main_v91_0)
    = val_main_v178 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 5).trans ?_
  refine (Sample6.result_z (V11 m ρ) c).trans ?_
  show Sample6.sample (Sample6.biased (W11 m ρ c (Proc.devRef .tc main_v74)) (W11 m ρ c (Proc.devRef .tc main_v89)))
      (Sample6.biased (W11 m ρ c (Proc.devRef .tc main_v88)) (W11 m ρ c (Proc.devRef .tc main_v90)))
      (W11 m ρ c (Proc.devRef .tc main_arg10)) = _
  rw [Kept.v74_at11, Heads.mean_propagated, Heads.mean_bias_row, Heads.logvar_propagated, Heads.logvar_bias_row, Kept.arg10_at11,
    mean_bias_eq, logvar_bias_eq, sample_eq]
  rfl

end Cert.KernelIdeal.Outputs

end
-- ==== Proof.KernelValue.lean ====
/-
  The kernel's program run to its return, its three results stated in the reference's words.

  Every weakly fair execution terminates without a fault in a state whose buffers hold the last boundary's contents;
  the three result arrays there are the reference's three results as functions of the eleven argument arrays, and the
  argument arrays are as launched.
-/
import proofs.«118265_j22986664968329_2_alg».proof.Proof.LastBoundary
import proofs.«118265_j22986664968329_2_alg».proof.Proof.Outputs

set_option maxRecDepth 16384

noncomputable section

namespace Cert.KernelIdeal.Value

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg)

/-- The run with its results named: the sample, the mean and the log-variance as the reference computes them from
    the argument arrays, and the arguments unchanged. -/
theorem run : θ_run defs (onTc (τ := τ) (main (F := Ideal))) ⟨m, fun _ => 0, ρ⟩ (fun r => ∀ c : Dev nD,
      r.2.mem ((c.tc : Thread nD τ).loc main_v91_0) = val_main_v178 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v91_1) = val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v91_2) = val_main_v173 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c).1.trans (Outputs.sample m ρ c), (h c).2.1.trans (Outputs.mean m ρ c), (h c).2.2.1.trans (Outputs.logvar m ρ c), (h c).2.2.2⟩)
    (LastBoundary.results m ρ)

end Cert.KernelIdeal.Value

end
-- ==== Proof.lean ====
/-
  The certificate: the kernel's grid calls and the reference compute the same three arrays.

  The program under proof is a two-layer graph-convolution encoder with a reparameterised sample.  The kernel computes
  the symmetric degree normalisation of the graph once and runs seven grid calls — four row-tiled matrix products, two
  bias-and-ReLU passes, one bias-and-sample pass — between the host's gathers and scatter-adds; the reference computes
  the normalisation afresh in each of its four convolutions and does every product, bias and clamp as a whole-array
  host operation.  Over the extended reals the two are one function of the eleven argument arrays: a row-tiled product
  into a zero accumulator is the host's dot_general entry by entry, 25 row blocks of 2000 tile the 50000 rows, the
  bias recast as a row is the bias broadcast along the columns, and every gather, scale and scatter-add is the same
  operation on the same lists.  No finiteness of the inputs is used.

  The three frames: each program terminates from any memory, faults nowhere and leaves its arguments as launched.  The
  idealisation rewrote no operation of the kernel, so what it preserves is trivially so.
-/
import proofs.«118265_j22986664968329_2_alg».proof.Defs
import proofs.«118265_j22986664968329_2_alg».proof.Proof.Gen.Kernel
import proofs.«118265_j22986664968329_2_alg».proof.Proof.Gen.Kernel.Frame
import proofs.«118265_j22986664968329_2_alg».proof.Proof.Gen.KernelIdeal
import proofs.«118265_j22986664968329_2_alg».proof.Proof.Gen.KernelIdeal.Frame
import proofs.«118265_j22986664968329_2_alg».proof.Proof.Gen.ReferenceIdeal
import proofs.«118265_j22986664968329_2_alg».proof.Proof.Gen.ReferenceIdeal.Run
import proofs.«118265_j22986664968329_2_alg».proof.Proof.Gen.ReferenceIdeal.Read
import proofs.«118265_j22986664968329_2_alg».proof.Proof.Gen.Pre_finite_inputs
import proofs.«118265_j22986664968329_2_alg».proof.Proof.KernelValue
import Idealize.ShloMosaic.Adequacy
import Idealize.ShloMosaic.Init

set_option maxRecDepth 16384

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the three results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- From memories that agree on the eleven arguments the two programs end with the same sample, mean and
    log-variance: each result of either program is one and the same function of the argument arrays. -/
theorem algebraic : Cert.algebraic_KernelIdeal_ReferenceIdeal := by
  intro m ρ m' ρ' _ hagree
  refine ⟨_, _, _, Cert.KernelIdeal.Value.run m ρ, ?_⟩
  refine (θ_run Cert.ReferenceIdeal.defs _ _).mono (fun r h c => ?_) (Cert.ReferenceIdeal.Value.run (F := Ideal) m' ρ')
  obtain ⟨h0, h1, h2, hargs⟩ := h c
  obtain ⟨a0, a1, a2, a3, a4, a5, a6, a7, a8, a9, a10⟩ := hagree c
  refine ⟨h0.trans ?_, h1.trans ?_, h2.trans ?_, hargs⟩
  · rw [Cert.ReferenceIdeal.Read.val_main_v178_eq, a0, a1, a2, a3, a4, a5, a6, a7, a8, a9, a10]
  · rw [Cert.ReferenceIdeal.Read.val_main_v131_eq, a0, a1, a2, a3, a4, a5, a6, a7]
  · rw [Cert.ReferenceIdeal.Read.val_main_v173_eq, a0, a1, a2, a3, a4, a5, a8, a9]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
